-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S2x65536 : Shape := ⟨2, ![2, 65536]⟩
abbrev S1x32 : Shape := ⟨2, ![1, 32]⟩
abbrev S1 : Shape := ⟨1, ![1]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S2048x16 .f32) (main_arg1 : IVec S2x65536 32) (main_arg2 : FVec F S1x32 .f32) (main_arg3 : FVec F S1 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S2048x16 : Shape := ⟨2, ![2048, 16]⟩
abbrev S2x65536 : Shape := ⟨2, ![2, 65536]⟩
abbrev S1x32 : Shape := ⟨2, ![1, 32]⟩
abbrev S1 : Shape := ⟨1, ![1]⟩
abbrev S2048x2048x32 : Shape := ⟨3, ![2048, 2048, 32]⟩
abbrev S2048x2048 : Shape := ⟨2, ![2048, 2048]⟩
abbrev S128x16 : Shape := ⟨2, ![128, 16]⟩
abbrev S128x128x32 : Shape := ⟨3, ![128, 128, 32]⟩
abbrev S128x128 : Shape := ⟨2, ![128, 128]⟩
abbrev S128x1x16 : Shape := ⟨3, ![128, 1, 16]⟩
abbrev S128x128x16 : Shape := ⟨3, ![128, 128, 16]⟩
abbrev S1x128x16 : Shape := ⟨3, ![1, 128, 16]⟩
abbrev S1x16 : Shape := ⟨2, ![1, 16]⟩
abbrev S16 : Shape := ⟨1, ![16]⟩
abbrev S1x1x16 : Shape := ⟨3, ![1, 1, 16]⟩
abbrev S4194304x32 : Shape := ⟨2, ![4194304, 32]⟩
abbrev S4194304 : Shape := ⟨1, ![4194304]⟩
abbrev S1x65536 : Shape := ⟨2, ![1, 65536]⟩
abbrev S65536 : Shape := ⟨1, ![65536]⟩
abbrev S_ : Shape := ⟨0, ![]⟩
abbrev S65536x1 : Shape := ⟨2, ![65536, 1]⟩

abbrev nBuf : Space → Nat
  | .hbm => 29
  | .vmem => 10
  | .smem => 0
  | _ => 0

abbrev bufTy : (tb : Table) → Fin (tcTables nBuf tb) → BufTy
  | .hbm, ⟨0, _⟩ => ⟨S2048x16, .f32⟩
  | .hbm, ⟨1, _⟩ => ⟨S2x65536, .i32⟩
  | .hbm, ⟨2, _⟩ => ⟨S1x32, .f32⟩
  | .hbm, ⟨3, _⟩ => ⟨S1, .f32⟩
  | .hbm, ⟨4, _⟩ => ⟨S2048x2048x32, .f32⟩
  | .hbm, ⟨5, _⟩ => ⟨S2048x2048, .f32⟩
  | .hbm, ⟨6, _⟩ => ⟨S4194304x32, .f32⟩
  | .hbm, ⟨7, _⟩ => ⟨S4194304, .f32⟩
  | .hbm, ⟨8, _⟩ => ⟨S1x65536, .i32⟩
  | .hbm, ⟨9, _⟩ => ⟨S65536, .i32⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S1x65536, .i32⟩
  | .hbm, ⟨14, _⟩ => ⟨S65536, .i32⟩
  | .hbm, ⟨15, _⟩ => ⟨S65536, .i32⟩
  | .hbm, ⟨16, _⟩ => ⟨S_, .f32⟩
  | .hbm, ⟨17, _⟩ => ⟨S4194304, .f32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S65536x1, .i32⟩
  | .hbm, ⟨26, _⟩ => ⟨S_, .f32⟩
  | .hbm, ⟨27, _⟩ => ⟨S65536, .f32⟩
  | .hbm, ⟨28, _⟩ => ⟨S4194304, .f32⟩
  | .local _ .vmem, ⟨0, _⟩ => ⟨S128x16, .f32⟩
  | .local _ .vmem, ⟨1, _⟩ => ⟨S128x16, .f32⟩
  | .local _ .vmem, ⟨2, _⟩ => ⟨S128x16, .f32⟩
  | .local _ .vmem, ⟨3, _⟩ => ⟨S128x16, .f32⟩
  | .local _ .vmem, ⟨4, _⟩ => ⟨S1x32, .f32⟩
  | .local _ .vmem, ⟨5, _⟩ => ⟨S1, .f32⟩
  | .local _ .vmem, ⟨6, _⟩ => ⟨S128x128x32, .f32⟩
  | .local _ .vmem, ⟨7, _⟩ => ⟨S128x128x32, .f32⟩
  | .local _ .vmem, ⟨8, _⟩ => ⟨S128x128, .f32⟩
  | .local _ .vmem, ⟨9, _⟩ => ⟨S128x128, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S128x16_S128x16_0_0 : ∀ a, (![0, 0] : Fin 2 → Nat) a + S128x16.size a ≤ S128x16.size a
  h_S128x16 : 0 < S128x16.numel
  shapeCasts_S128x16_S128x1x16 : S128x16.ShapeCasts S128x1x16
  shapeCasts_S128x1x16_S128x1x16 : S128x1x16.ShapeCasts S128x1x16
  broadcasts_S128x1x16_S128x128x16 : S128x1x16.Broadcasts S128x128x16
  shapeCasts_S128x16_S1x128x16 : S128x16.ShapeCasts S1x128x16
  shapeCasts_S1x128x16_S1x128x16 : S1x128x16.ShapeCasts S1x128x16
  broadcasts_S1x128x16_S128x128x16 : S1x128x16.Broadcasts S128x128x16
  concatenates_S128x128x16_S128x128x16_S128x128x32_d2 : Shape.Concatenates [S128x128x16, S128x128x16] S128x128x32 2
  inb_S128x128x32_S128x128x32_0_0_0 : ∀ a, (![0, 0, 0] : Fin 3 → Nat) a + S128x128x32.size a ≤ S128x128x32.size a
  h_S128x128x32 : 0 < S128x128x32.numel
  reduces_S128x128x16_S128x128 : S128x128x16.Reduces [2] S128x128
  inb_S1x32_S1x32_0_0 : ∀ a, (![0, 0] : Fin 2 → Nat) a + S1x32.size a ≤ S1x32.size a
  h_S1x32 : 0 < S1x32.numel
  slices_S1x32_o0_0_S1x16 : S1x32.Slices ![0, 0] S1x16
  shapeCasts_S1x16_S16 : S1x16.ShapeCasts S16
  slices_S1x32_o0_16_S1x16 : S1x32.Slices ![0, 16] S1x16
  shapeCasts_S16_S1x1x16 : S16.ShapeCasts S1x1x16
  broadcasts_S1x1x16_S128x128x16 : S1x1x16.Broadcasts S128x128x16
  inb_S1_S1_0 : ∀ a, (![0] : Fin 1 → Nat) a + S1.size a ≤ S1.size a
  h_S1 : 0 < S1.numel
  inpos_S1_p0 : ∀ a, (![0] : Fin 1 → Nat) a < S1.size a
  inb_S128x128_S128x128_0_0 : ∀ a, (![0, 0] : Fin 2 → Nat) a + S128x128.size a ≤ S128x128.size a
  h_S128x128 : 0 < S128x128.numel
  shapeCasts_S2048x2048x32_S4194304x32 : S2048x2048x32.ShapeCasts S4194304x32
  shapeCasts_S2048x2048_S4194304 : S2048x2048.ShapeCasts S4194304
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  slices_S2x65536_S1x65536_1_0 : S2x65536.Slices ![1, 0] S1x65536
  bcast_S_S4194304 : S_.BroadcastsInDim S4194304 (![] : Fin 0 → Fin S4194304.rank)
  bcast_S65536_S65536x1_0 : S65536.BroadcastsInDim S65536x1 (![0] : Fin 1 → Fin S65536x1.rank)
  scatter_S4194304_S65536x1_S65536_n_0_0_1_wf : ScatterDims.WF S4194304 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16.size a ≤ S2048x16.size a
  hwx0_0 : ∀ i : grid0.Coords, EltTy.bits .f32 = 32 ∨ (Rect.block (s := S2048x16) S128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S2048x16.size a
  hwx0_1 : ∀ i : grid0.Coords, EltTy.bits .f32 = 32 ∨ (Rect.block (s := S2048x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128x32.size a ≤ S2048x2048x32.size a
  hwx0_4 : ∀ i : grid0.Coords, EltTy.bits .f32 = 32 ∨ (Rect.block (s := S2048x2048x32) S128x128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S2048x2048.size a
  hwx0_5 : ∀ i : grid0.Coords, EltTy.bits .f32 = 32 ∨ (Rect.block (s := S2048x2048) S128x128.size (cc0_transform_5 i) (hinb0_5 i)).WholeWords (EltTy.packing .f32)

variable [Facts₀]

def scatter_S4194304_S65536x1_S65536_n_0_0_1 : ScatterDims S4194304 S65536x1 S65536 where
  updateWindowDims := []
  insertedWindowDims := [0]
  scatterDimsToOperandDims := [0]
  indexVectorDim := 1
  wf := scatter_S4194304_S65536x1_S65536_n_0_0_1_wf

abbrev win0_0 : Pipeline.Window sig grid0 :=
  Pipeline.Window.ofSpec (Memref.whole main_arg0) S128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x128x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x16 : Shape := ⟨2, ![2048, 16]⟩
abbrev S2x65536 : Shape := ⟨2, ![2, 65536]⟩
abbrev S1x32 : Shape := ⟨2, ![1, 32]⟩
abbrev S1 : Shape := ⟨1, ![1]⟩
abbrev S2048x2048x16 : Shape := ⟨3, ![2048, 2048, 16]⟩
abbrev S4194304x16 : Shape := ⟨2, ![4194304, 16]⟩
abbrev S1x2048x1x16 : Shape := ⟨4, ![1, 2048, 1, 16]⟩
abbrev S2048x2048x1x16 : Shape := ⟨4, ![2048, 2048, 1, 16]⟩
abbrev S4194304x32 : Shape := ⟨2, ![4194304, 32]⟩
abbrev S_ : Shape := ⟨0, ![]⟩
abbrev S4194304 : Shape := ⟨1, ![4194304]⟩
abbrev S32x1 : Shape := ⟨2, ![32, 1]⟩
abbrev S4194304x1 : Shape := ⟨2, ![4194304, 1]⟩
abbrev S1x1 : Shape := ⟨2, ![1, 1]⟩
abbrev S1x65536 : Shape := ⟨2, ![1, 65536]⟩
abbrev S65536 : Shape := ⟨1, ![65536]⟩
abbrev S65536x1 : Shape := ⟨2, ![65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2x65536, .i32⟩
  | .hbm, ⟨2, _⟩ => ⟨S1x32, .f32⟩
  | .hbm, ⟨3, _⟩ => ⟨S1, .f32⟩
  | .hbm, ⟨4, _⟩ => ⟨S2048x2048x16, .f32⟩
  | .hbm, ⟨5, _⟩ => ⟨S4194304x16, .f32⟩
  | .hbm, ⟨6, _⟩ => ⟨S1x2048x1x16, .f32⟩
  | .hbm, ⟨7, _⟩ => ⟨S2048x2048x1x16, .f32⟩
  | .hbm, ⟨8, _⟩ => ⟨S4194304x16, .f32⟩
  | .hbm, ⟨9, _⟩ => ⟨S4194304x32, .f32⟩
  | .hbm, ⟨10, _⟩ => ⟨S4194304x16, .f32⟩
  | .hbm, ⟨11, _⟩ => ⟨S4194304x16, .f32⟩
  | .hbm, ⟨12, _⟩ => ⟨S_, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S4194304, .i1⟩
  | .hbm, ⟨17, _⟩ => ⟨S32x1, .f32⟩
  | .hbm, ⟨18, _⟩ => ⟨S4194304x1, .f32⟩
  | .hbm, ⟨19, _⟩ => ⟨S1x1, .f32⟩
  | .hbm, ⟨20, _⟩ => ⟨S4194304x1, .f32⟩
  | .hbm, ⟨21, _⟩ => ⟨S4194304x1, .f32⟩
  | .hbm, ⟨22, _⟩ => ⟨S4194304, .f32⟩
  | .hbm, ⟨23, _⟩ => ⟨S_, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S1x65536, .i32⟩
  | .hbm, ⟨28, _⟩ => ⟨S65536, .i32⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S1x65536, .i32⟩
  | .hbm, ⟨33, _⟩ => ⟨S65536, .i32⟩
  | .hbm, ⟨34, _⟩ => ⟨S65536, .i32⟩
  | .hbm, ⟨35, _⟩ => ⟨S_, .f32⟩
  | .hbm, ⟨36, _⟩ => ⟨S4194304, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S_, .f32⟩
  | .hbm, ⟨46, _⟩ => ⟨S65536, .f32⟩
  | .hbm, ⟨47, _⟩ => ⟨S4194304, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S2048x16_S2048x2048x16_0_2 : S2048x16.BroadcastsInDim S2048x2048x16 (![0, 2] : Fin 2 → Fin S2048x2048x16.rank)
  shapeCasts_S2048x2048x16_S4194304x16 : S2048x2048x16.ShapeCasts S4194304x16
  shapeCasts_S2048x16_S1x2048x1x16 : S2048x16.ShapeCasts S1x2048x1x16
  bcast_S1x2048x1x16_S2048x2048x1x16_0_1_2_3 : S1x2048x1x16.BroadcastsInDim S2048x2048x1x16 (![0, 1, 2, 3] : Fin 4 → Fin S2048x2048x1x16.rank)
  shapeCasts_S2048x2048x1x16_S4194304x16 : S2048x2048x1x16.ShapeCasts S4194304x16
  concatenates_S4194304x16_S4194304x16_S4194304x32_d1 : Shape.Concatenates [S4194304x16, S4194304x16] S4194304x32 1
  reducesTo_S4194304x16_S4194304_d1 : S4194304x16.ReducesTo [1] S4194304
  h_S_ : 0 < S_.numel
  bcast_S_S4194304 : S_.BroadcastsInDim S4194304 (![] : Fin 0 → Fin S4194304.rank)
  transposes_S1x32_S32x1_1_0 : S1x32.Transposes [1, 0] S32x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  shapeCasts_S4194304x1_S4194304 : S4194304x1.ShapeCasts S4194304
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  slices_S2x65536_S1x65536_1_0 : S2x65536.Slices ![1, 0] S1x65536
  bcast_S65536_S65536x1_0 : S65536.BroadcastsInDim S65536x1 (![0] : Fin 1 → Fin S65536x1.rank)
  dot_S4194304x32_S32x1_S4194304x1_1_0_0_1_n_n_wf : DotDims.WF S4194304x32 S32x1 S4194304x1 [1] [0] [0] [1] [] []
  scatter_S4194304_S65536x1_S65536_n_0_0_1_wf : ScatterDims.WF S4194304 S65536x1 S65536 [] [0] [0] 1

variable [Facts₀]

def dot_S4194304x32_S32x1_S4194304x1_1_0_0_1_n_n : DotDims S4194304x32 S32x1 S4194304x1 where
  lhsContracting := [1]
  rhsContracting := [0]
  lhsNonContracting := [0]
  rhsNonContracting := [1]
  lhsBatch := []
  rhsBatch := []
  wf := dot_S4194304x32_S32x1_S4194304x1_1_0_0_1_n_n_wf
def scatter_S4194304_S65536x1_S65536_n_0_0_1 : ScatterDims S4194304 S65536x1 S65536 where
  updateWindowDims := []
  insertedWindowDims := [0]
  scatterDimsToOperandDims := [0]
  indexVectorDim := 1
  wf := scatter_S4194304_S65536x1_S65536_n_0_0_1_wf

class Facts : Prop extends Facts₀ where

variable [Facts]
-- ==== Proof.RegionBits.lean ====
/-
  (The printed program read at machine words; the text of the proof is the idealized program's, which is the same program.)

  The region of the program: what each window's staging buffer holds when the body runs, what the body leaves, and the
  bookkeeping of the pipelined run.

  The program hands its node table to the kernel TWICE: window 0 takes the block of 128 rows chosen by the first grid
  coordinate, window 1 the block chosen by the second. Both windows only read the table, so each holds one half of the
  table's full share for the whole run, and the table ends as it began. The weight row and the bias are each one block,
  fetched once. At grid point (i, j) the body writes, whole, block (i, j, 0) of the 2048×2048×32 array and block (i, j) of
  the 2048×2048 array, each a function of the four input blocks alone; the body also reads what those two staging buffers
  held before, and uses nothing of it.
-/
import proofs.«109483_j54228257080068_1_alg».proof.Proof.Gen.Kernel.Launch
import proofs.«109483_j54228257080068_1_alg».proof.Proof.Gen.Kernel.Skeleton
import proofs.«109483_j54228257080068_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: no host operation comes before it, so they are the launch contents. -/
abbrev V0 (c : Dev nD) : Valuation τ sig (Elt F) := StableHlo.after (List.flatten ([] : List (List (HloOp τ sig (Elt F))))) (fun b => m (c, b))
/-- The same, read at a TensorCore reference. -/
abbrev V (c : Dev nD) (b : Ref sig .tc) : Buf (Elt F) ((c : Thread nD τ).loc b) := V0 m c (Proc.devRef .tc b)

/-- The host operations after the region allocate nothing. -/
theorem hostOps1_fresh : (hostOps1 : List (HloOp τ sig (Elt F))).Forall fun op => op.fresh = ∅ := by
  simp only [List.Forall]; repeat' constructor

/-- The program is its region followed by the 23 host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether that point fetched it or the block index
    has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rNodes : Rect S128x16 := Rect.unit (s := S128x16) ![0, 0] S128x16.size Facts₀.inb_S128x16_S128x16_0_0
abbrev rWeights : Rect S1x32 := Rect.unit (s := S1x32) ![0, 0] S1x32.size Facts₀.inb_S1x32_S1x32_0_0
abbrev rBias : Rect S1 := Rect.unit (s := S1) ![0] S1.size Facts₀.inb_S1_S1_0
abbrev rEmb : Rect S128x128x32 := Rect.unit (s := S128x128x32) ![0, 0, 0] S128x128x32.size Facts₀.inb_S128x128x32_S128x128x32_0_0_0
abbrev rScore : Rect S128x128 := Rect.unit (s := S128x128) ![0, 0] S128x128.size Facts₀.inb_S128x128_S128x128_0_0

/-- What the body leaves in the embeddings' staging buffer: its one store, of the whole block. -/
def outEmb (x0 x1 : Vec F S128x16 .f32) : Vec F S128x128x32 .f32 :=
  View.canon [⟨rEmb, k0_pay3 (View.ld x0 rNodes) (View.ld x1 rNodes)⟩]
/-- What the body leaves in the results' staging buffer: its one store, of the whole block. -/
def outScore (x0 x1 : Vec F S128x16 .f32) (x2 : Vec F S1x32 .f32) (x3 : Vec F S1 .f32) : Vec F S128x128 .f32 :=
  View.canon [⟨rScore, k0_pay4 (View.ld x0 rNodes) (View.ld x1 rNodes) (View.ld x2 rWeights) (View.ld x3 rBias)⟩]

/-- The one store covers the embeddings' buffer. -/
theorem coverEmb (p0 : Vec F S128x128x32 .f32) (y : S128x128x32.Idx) :
    ∃ pc ∈ ([⟨rEmb, p0⟩] : List (View.Piece (Elt F) S128x128x32 .f32)), y ∈ pc.1.set :=
  View.cover_of_tiled [⟨rEmb, p0⟩] S128x128x32.size (by rfl) y
/-- The one store covers the results' buffer. -/
theorem coverScore (p0 : Vec F S128x128 .f32) (y : S128x128.Idx) :
    ∃ pc ∈ ([⟨rScore, p0⟩] : List (View.Piece (Elt F) S128x128 .f32)), y ∈ pc.1.set :=
  View.cover_of_tiled [⟨rScore, p0⟩] S128x128.size (by rfl) y

/-! ## The body's triple -/

set_option maxHeartbeats 1000000 in
/-- The body on whole staging buffers — the four inputs' at contents `x0 … x3`, the two outputs' at anything — runs to the
    continuation holding the inputs' as they were and the outputs' at `outEmb` and `outScore` of the inputs'. -/
theorem sound_kernel (c : Dev nD) (E : Set ℕ) (i : grid0.Coords)
    (arg2 : Memref sig .tc .vmem S128x16 .f32) (harg2 : arg2.IsWhole) (arg3 : Memref sig .tc .vmem S128x16 .f32) (harg3 : arg3.IsWhole)
    (arg4 : Memref sig .tc .vmem S1x32 .f32) (harg4 : arg4.IsWhole) (arg5 : Memref sig .tc .vmem S1 .f32) (harg5 : arg5.IsWhole)
    (arg6 : Memref sig .tc .vmem S128x128x32 .f32) (harg6 : arg6.IsWhole) (arg7 : Memref sig .tc .vmem S128x128 .f32) (harg7 : arg7.IsWhole)
    (x0 x1 : Vec F S128x16 .f32) (x2 : Vec F S1x32 .f32) (x3 : Vec F S1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outEmb x0 x1) ∗ owns (c : Thread nD τ) arg7 fullShare (outScore x0 x1 x2 x3)) -∗ K ⟨⟩))
      ⊢ wp frame (wpE (defs₀ (F := F)) Variants.none c none) E (cc0__edge_kernel i arg2 harg2 arg3 harg3 arg4 harg4 arg5 harg5 arg6 harg6 arg7 harg7) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverEmb _)
  · iexists _; isplitr
    swap; · iexact H5
    ipureintro
    exact View.read_writes_eq_canon _ _ _ (coverScore _)

/-! ## The pipeline's proof data -/

/-- The bookkeeping of the one pipeline on core `c`. The arrays are as the region finds them; after the body at point `t` each
    input's buffer holds its block and each output's what the body stored; the body keeps nothing between points but the
    core's scratch; nothing is owed. The node table stands behind windows 0 and 1: window 0 holds the left half of its
    full share and window 1 the right half; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outEmb (iblk m c 0 t) (iblk m c 1 t)
    | ⟨5, _⟩ => outScore (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outEmb (iblk m c 0 t) (iblk m c 1 t) := by dsimp only [dats]
theorem after0_5 (c : Dev nD) (t : Fin cfg0.N) :
    (dats m 0 c).after 5 t = outScore (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The shares the arrays are held at. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the four inputs' buffers hold their blocks, so the body's triple applies; the scratch and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays and the buffers behind them -/

/-- The pipeline's arrays, each whole: window by window, the buffer behind it at the window's share. -/
theorem arrays_open (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_arg2) ↦{fullShare} G 2) ∗ (((c.tc : Thread nD τ).loc main_arg3) ↦{fullShare} G 3)
          ∗ (((c.tc : Thread nD τ).loc main_v0_0) ↦{fullShare} G 4) ∗ (((c.tc : Thread nD τ).loc main_v0_1) ↦{fullShare} G 5)) := by
  have h : ((dats m 0 c).arrays G : sProp 𝕄)
      = bigSep Finset.univ fun w => (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0, share0, share1, share2, share3, share4, share5]

/-- The five distinct buffers behind the six windows, each whole at the full share. -/
theorem arrBufs_open (c : Dev nD) (Wv : (b : Ref sig .tc) → Buf (Elt F) ((c.tc : Thread nD τ).loc b)) :
    (Pipeline.arrBufs (Ix := Unit) (Name := ℕ) (U := UR sig nD τ) (Lvl := ℕ) spec0 c Wv : sProp 𝕄)
      = iprop((((c.tc : Thread nD τ).loc main_arg0) ↦{fullShare} Wv main_arg0)
          ∗ (((c.tc : Thread nD τ).loc main_arg2) ↦{fullShare} Wv main_arg2) ∗ (((c.tc : Thread nD τ).loc main_arg3) ↦{fullShare} Wv main_arg3)
          ∗ (((c.tc : Thread nD τ).loc main_v0_0) ↦{fullShare} Wv main_v0_0) ∗ (((c.tc : Thread nD τ).loc main_v0_1) ↦{fullShare} Wv main_v0_1)) := by
  unfold Pipeline.arrBufs
  rw [bigSep_eq_bigSepL_of_eq [main_arg0, main_arg2, main_arg3, main_v0_0, main_v0_1] (by decide) (by decide)]
  rfl

/-- The buffers behind the arrays, held whole, are the arrays at the windows' shares: the node table's full share is dealt
    as its two halves to the two windows that read it. -/
theorem arrays_of_bufs (c : Dev nD) (G : (w : Fin cfg0.W) → Buf (Elt F) ((cfg0.win w).arr.view.loc (c.tc : Thread nD τ)))
    (Wv : (b : Ref sig .tc) → Buf (Elt F) ((c.tc : Thread nD τ).loc b))
    (h0 : G 0 = Wv main_arg0) (h1 : G 1 = Wv main_arg0) (h2 : G 2 = Wv main_arg2) (h3 : G 3 = Wv main_arg3)
    (h4 : G 4 = Wv main_v0_0) (h5 : G 5 = Wv main_v0_1) :
    (Pipeline.arrBufs (Ix := Unit) (Name := ℕ) (U := UR sig nD τ) (Lvl := ℕ) spec0 c Wv : sProp 𝕄) ⊢ (dats m 0 c).arrays G := by
  rw [arrays_open, arrBufs_open, h0, h1, h2, h3, h4, h5]
  iintro ⟨H0, H2, H3, H4, H5⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  isplitl [H4]; · iexact H4
  iexact H5

/-- And back: the two halves of the node table, at the same contents, are the table whole. -/
theorem bufs_of_arrays (c : Dev nD) (G : (w : Fin cfg0.W) → Buf (Elt F) ((cfg0.win w).arr.view.loc (c.tc : Thread nD τ)))
    (Wv : (b : Ref sig .tc) → Buf (Elt F) ((c.tc : Thread nD τ).loc b))
    (h0 : G 0 = Wv main_arg0) (h1 : G 1 = Wv main_arg0) (h2 : G 2 = Wv main_arg2) (h3 : G 3 = Wv main_arg3)
    (h4 : G 4 = Wv main_v0_0) (h5 : G 5 = Wv main_v0_1) :
    ((dats m 0 c).arrays G : sProp 𝕄) ⊢ Pipeline.arrBufs (Ix := Unit) (Name := ℕ) (U := UR sig nD τ) (Lvl := ℕ) spec0 c Wv := by
  rw [arrays_open, arrBufs_open, h0, h1, h2, h3, h4, h5]
  iintro ⟨Hl, Hr, H2, H3, H4, H5⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  iexact H5

/-- At the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_of_bufs m c _ _ (A_eq m c 0) (A_eq m c 1) (A_eq m c 2) (A_eq m c 3) (A_eq m c 4) (A_eq m c 5)

/-- The unscoped buffers are the buffers behind the arrays and the ones that bypass the region. -/
theorem unscoped_split (c : Dev nD) (Wv : (b : Ref sig .tc) → Buf (Elt F) ((c.tc : Thread nD τ).loc b)) :
    (unscopedBufs (Ix := Unit) (Name := ℕ) (U := UR sig nD τ) (Lvl := ℕ) c Wv : sProp 𝕄)
      = iprop((Pipeline.arrBufs (Ix := Unit) (Name := ℕ) (U := UR sig nD τ) (Lvl := ℕ) spec0 c Wv : sProp 𝕄)
          ∗ Pipeline.unscopedRest (Ix := Unit) (Name := ℕ) (U := UR sig nD τ) (Lvl := ℕ) spec0 c Wv) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-! ## The contents at the region's exit and after the lines that follow -/

/-- The buffers' contents when the region is left: the two arrays it wrote at their final contents, every other buffer as
    the region found it. -/
def Wexit (c : Dev nD) : Valuation τ sig (Elt F) := fun b =>
  if h : b = Proc.devRef .tc main_v0_0 then
    cast (congrArg (fun b' : DevRef τ sig => b'.ty.Contents (Elt F)) h.symm) ((dats m 0 c).arrAt 4 cfg0.N)
  else if h : b = Proc.devRef .tc main_v0_1 then
    cast (congrArg (fun b' : DevRef τ sig => b'.ty.Contents (Elt F)) h.symm) ((dats m 0 c).arrAt 5 cfg0.N)
  else V0 m c b

theorem Wexit_emb (c : Dev nD) : Wexit m c (Proc.devRef .tc main_v0_0) = (dats m 0 c).arrAt 4 cfg0.N := by
  unfold Wexit; rw [dif_pos rfl]; rfl
theorem Wexit_score (c : Dev nD) : Wexit m c (Proc.devRef .tc main_v0_1) = (dats m 0 c).arrAt 5 cfg0.N := by
  unfold Wexit; rw [dif_neg (StableHlo.devRef_ne_of_ne (by decide)), dif_pos rfl]; rfl
theorem Wexit_other (c : Dev nD) (b : Ref sig .tc) (h0 : b ≠ main_v0_0) (h1 : b ≠ main_v0_1) :
    Wexit m c (Proc.devRef .tc b) = V m c b := by
  unfold Wexit; rw [dif_neg (StableHlo.devRef_ne_of_ne h0), dif_neg (StableHlo.devRef_ne_of_ne h1)]

/-- The contents after the 23 host operations that follow the region. -/
def Wafter (c : Dev nD) : Valuation τ sig (Elt F) := StableHlo.after hostOps1 (Wexit m c)

/-- The lines write none of the five buffers behind the arrays. -/
theorem Wafter_kept (c : Dev nD) (b : Ref sig .tc) (hb : b = main_arg0 ∨ b = main_arg2 ∨ b = main_arg3 ∨ b = main_v0_0 ∨ b = main_v0_1) :
    Wafter m c (Proc.devRef .tc b) = Wexit m c (Proc.devRef .tc b) := by
  unfold Wafter
  refine StableHlo.after_of_forall_not_mem (b := Proc.devRef .tc b) _ _ (List.forall_iff_forall_mem.mp ?_)
  rcases hb with rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- An input array is never written: it ends as the region found it. -/
theorem arrAt_in0 (c : Dev nD) (n : Nat) : (dats m 0 c).arrAt 0 n = V m c main_arg0 := ((dats m 0 c).arrAt_in 0 rfl n).trans (A_eq m c 0)
theorem arrAt_in1 (c : Dev nD) (n : Nat) : (dats m 0 c).arrAt 1 n = V m c main_arg0 := ((dats m 0 c).arrAt_in 1 rfl n).trans (A_eq m c 1)
theorem arrAt_in2 (c : Dev nD) (n : Nat) : (dats m 0 c).arrAt 2 n = V m c main_arg2 := ((dats m 0 c).arrAt_in 2 rfl n).trans (A_eq m c 2)
theorem arrAt_in3 (c : Dev nD) (n : Nat) : (dats m 0 c).arrAt 3 n = V m c main_arg3 := ((dats m 0 c).arrAt_in 3 rfl n).trans (A_eq m c 3)

/-- A buffer that bypasses the region is none of the two arrays the region wrote. -/
theorem rest_ne (b : Ref sig .tc) (hb : b ∈ Pipeline.restRefs sig spec0) : b ≠ main_v0_0 ∧ b ≠ main_v0_1 := by
  have h := (Finset.mem_sdiff.mp hb).2
  exact ⟨fun e => h (Finset.mem_image.mpr ⟨4, Finset.mem_univ _, e.symm⟩), fun e => h (Finset.mem_image.mpr ⟨5, Finset.mem_univ _, e.symm⟩)⟩

/-! ## The lines after the region -/

-- a rule stated for any thread, applied at the TensorCore thread, unifies only when unification may unfold plain
-- definitions in a metavariable's type
set_option backward.isDefEq.respectTransparency.types false in
/-- From the region's exit — the arrays at their final contents, the bypassing buffers as the region found them — the 23
    host operations run, within the unscoped buffers (the node table's halves put together for the while), and hand back the
    arrays as they were and the bypassing buffers at what the operations compute. -/
theorem htail (𝒱₀ : Variants) (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Wafter m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) (defs₀ (F := F))) (Variants.lift 𝒱₀) (c.tc : Thread nD τ) none) Set.univ
          (Pipeline.chain [StableHlo.seq (hostOps1 (F := F))]) Q' := by
  classical
  -- the bypassing buffers at the exit contents are those at the entry contents
  have hrest : (Pipeline.unscopedRest (Ix := Unit) (Name := ℕ) (U := UR sig nD τ) (Lvl := ℕ) spec0 c (fun b => Wexit m c (Proc.devRef .tc b)) : sProp 𝕄)
      = Pipeline.unscopedRest (Ix := Unit) (Name := ℕ) (U := UR sig nD τ) (Lvl := ℕ) spec0 c (V m c) := by
    unfold Pipeline.unscopedRest
    exact bigSep_congr fun b hb => by
      show (((c.tc : Thread nD τ).loc b) ↦{fullShare} Wexit m c (Proc.devRef .tc b) : sProp 𝕄) = _
      rw [Wexit_other m c b (rest_ne b hb).1 (rest_ne b hb).2]
  have hexit : (StableHlo.held (c.tc : Thread nD τ) (Pipeline.ucRefs τ sig) (Wexit m c) : sProp 𝕄)
      = iprop((Pipeline.arrBufs (Ix := Unit) (Name := ℕ) (U := UR sig nD τ) (Lvl := ℕ) spec0 c (fun b => Wexit m c (Proc.devRef .tc b)) : sProp 𝕄)
          ∗ Pipeline.unscopedRest (Ix := Unit) (Name := ℕ) (U := UR sig nD τ) (Lvl := ℕ) spec0 c (V m c)) := by
    rw [← Pipeline.unscopedBufs_held (Ix := Unit) (Name := ℕ) (U := UR sig nD τ) (Lvl := ℕ) c (Wexit m c), unscoped_split, hrest]
  have hafter : (StableHlo.held (c.tc : Thread nD τ) (Pipeline.ucRefs τ sig) (Wafter m c) : sProp 𝕄)
      = iprop((Pipeline.arrBufs (Ix := Unit) (Name := ℕ) (U := UR sig nD τ) (Lvl := ℕ) spec0 c (fun b => Wafter m c (Proc.devRef .tc b)) : sProp 𝕄)
          ∗ Pipeline.unscopedRest (Ix := Unit) (Name := ℕ) (U := UR sig nD τ) (Lvl := ℕ) spec0 c (fun b => Wafter m c (Proc.devRef .tc b))) := by
    rw [← Pipeline.unscopedBufs_held (Ix := Unit) (Name := ℕ) (U := UR sig nD τ) (Lvl := ℕ) c (Wafter m c), unscoped_split]
  have hseq := Pipeline.wp_seqs_then (Ix := Unit) (Name := ℕ) (U := UR sig nD τ) (Lvl := ℕ) (fun q => Cfg.toPCfg (Val := Elt F) (cfgs q)) (defs₀ (F := F)) 𝒱₀ c
    (Pipeline.ucRefs τ sig) [] (K := Q') [hostOps1 (F := F)]
    (fun ops hops op hop => by
      simp only [List.mem_cons, List.mem_nil_iff, _root_.or_false] at hops
      rcases hops with rfl
      exact Pipeline.sub_ucRefs op ((List.forall_iff_forall_mem.mp hostOps1_sub) op hop))
    (fun ops hops op hop => by
      simp only [List.mem_cons, List.mem_nil_iff, _root_.or_false] at hops
      rcases hops with rfl
      exact (List.forall_iff_forall_mem.mp hostOps1_fresh) op hop)
    (Wexit m c)
  rw [List.append_nil, show ([hostOps1 (F := F)] : List (List (HloOp τ sig (Elt F)))).flatten = hostOps1 from by simp only [List.flatten_cons, List.flatten_nil, List.append_nil]] at hseq
  have hexit' := Entails.of_eq hexit.symm
  have hafter' : (StableHlo.held (c.tc : Thread nD τ) (Pipeline.ucRefs τ sig) (StableHlo.after (hostOps1 (F := F)) (Wexit m c)) : sProp 𝕄)
      ⊢ iprop((Pipeline.arrBufs (Ix := Unit) (Name := ℕ) (U := UR sig nD τ) (Lvl := ℕ) spec0 c (fun b => Wafter m c (Proc.devRef .tc b)) : sProp 𝕄)
          ∗ Pipeline.unscopedRest (Ix := Unit) (Name := ℕ) (U := UR sig nD τ) (Lvl := ℕ) spec0 c (fun b => Wafter m c (Proc.devRef .tc b))) :=
    Entails.of_eq hafter
  have hjoin := bufs_of_arrays m c (fun w => (dats m 0 c).arrAt w cfg0.N) (fun b => Wexit m c (Proc.devRef .tc b))
    ((arrAt_in0 m c _).trans (Wexit_other m c main_arg0 (by decide) (by decide)).symm)
    ((arrAt_in1 m c _).trans (Wexit_other m c main_arg0 (by decide) (by decide)).symm)
    ((arrAt_in2 m c _).trans (Wexit_other m c main_arg2 (by decide) (by decide)).symm)
    ((arrAt_in3 m c _).trans (Wexit_other m c main_arg3 (by decide) (by decide)).symm)
    (Wexit_emb m c).symm (Wexit_score m c).symm
  have hdeal := arrays_of_bufs m c (fun w => (dats m 0 c).arrAt w cfg0.N) (fun b => Wafter m c (Proc.devRef .tc b))
    ((arrAt_in0 m c _).trans ((Wexit_other m c main_arg0 (by decide) (by decide)).symm.trans (Wafter_kept m c main_arg0 (.inl rfl)).symm))
    ((arrAt_in1 m c _).trans ((Wexit_other m c main_arg0 (by decide) (by decide)).symm.trans (Wafter_kept m c main_arg0 (.inl rfl)).symm))
    ((arrAt_in2 m c _).trans ((Wexit_other m c main_arg2 (by decide) (by decide)).symm.trans (Wafter_kept m c main_arg2 (.inr (.inl rfl))).symm))
    ((arrAt_in3 m c _).trans ((Wexit_other m c main_arg3 (by decide) (by decide)).symm.trans (Wafter_kept m c main_arg3 (.inr (.inr (.inl rfl)))).symm))
    ((Wexit_emb m c).symm.trans (Wafter_kept m c main_v0_0 (.inr (.inr (.inr (.inl rfl))))).symm)
    ((Wexit_score m c).symm.trans (Wafter_kept m c main_v0_1 (.inr (.inr (.inr (.inr rfl))))).symm)
  iintro ⟨Hk, Hbd, HA, HZ⟩
  ihave HB := hjoin $$ HA
  ihave Hh := hexit' $$ [HB HZ]
  · isplitl [HB]; · iexact HB
    iexact HZ
  iapply hseq $$ [Hbd Hh]
  · isplitl [Hbd]; · iexact Hbd
    iexact Hh
  iintro ⟨Hbd, Hh⟩
  rw [Pipeline.chain_nil, wp_pure]
  imodintro
  iapply Hk
  ihave Hh' := hafter' $$ Hh
  icases Hh' with ⟨HB, HR⟩
  isplitl [HB]
  · iapply hdeal; iexact HB
  · iexact HR

/-! ## The run -/

set_option backward.isDefEq.respectTransparency.types false in
/-- From any memory with zero counters, every weakly fair execution of the program terminates, every array of the pipeline
    ending at what the bookkeeping computes and every other unscoped buffer at what the 23 operations after the region
    compute from the region's exit contents. -/
theorem run_main : θ_run defs (onTc (τ := τ) (main (F := F))) (s₀ m ρ)
    (Pipeline.FramePost cfgs (dats m) 0 (fun c b => Wafter m c (Proc.devRef .tc b))) :=
  Pipeline.θ_run_region_noSem_pf_tail (fun p => (cfgs p).toPCfg) (fun p => (cfgs p).toPCfg_adm) (dats m) () cellOf_inj (0 : Fin 1) winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := BI.Entails.refl _)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Wafter m c (Proc.devRef .tc b)))
    (hX := fun c => by
      rw [Pipeline.unscopedRestP_none]
      iintro H; isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, H⟩; iexact H))
    (hout := fun c => (show (Pipeline.scopedRest (Ix := Unit) (Name := ℕ) (U := UR sig nD τ) (Lvl := ℕ) (Val := Elt F) spec0 c : sProp 𝕄) ⊢ _ from by
      iintro H; isplitr; · iempintro
      iexact H))
    (htail := htail m Variants.none)
    (QY := fun c s => ∀ b ∈ Pipeline.restRefs sig spec0, s.mem ((c.tc : Thread nD τ).loc b) = Wafter m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Wafter m c (Proc.devRef .tc b)) s')
      isplitl [HU] <;> iassumption)
    (hQ := fun s h c => ⟨(h c).1, (h c).2.2⟩)

/-- info: 'Cert.Kernel.Region.run_main' depends on axioms: [propext, Classical.choice, Quot.sound] -/
#guard_msgs in #print axioms run_main

/-! ## The frame -/

/-- The integer input bypasses the region and no line after it writes it. -/
theorem Wafter_arg1 (c : Dev nD) : Wafter m c (Proc.devRef .tc main_arg1) = m ((c : Thread nD τ).loc main_arg1) := by
  unfold Wafter
  rw [StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact Wexit_other m c main_arg1 (by decide) (by decide)

/-- THE FRAME: the program runs to the end, faults nowhere and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (arrAt_in0 m c _),
     ((h c).2 main_arg1 (Pipeline.mem_restRefs_of main_arg1 (by decide) (by decide))).trans (Wafter_arg1 m c),
     ((h c).1 2).trans (arrAt_in2 m c _),
     ((h c).1 3).trans (arrAt_in3 m c _)⟩) (run_main m ρ)

end Cert.Kernel.Region

end
-- ==== Proof.Region.lean ====
/-
  The region of the program: what each window's staging buffer holds when the body runs, what the body leaves, and the
  bookkeeping of the pipelined run.

  The program hands its node table to the kernel TWICE: window 0 takes the block of 128 rows chosen by the first grid
  coordinate, window 1 the block chosen by the second. Both windows only read the table, so each holds one half of the
  table's full share for the whole run, and the table ends as it began. The weight row and the bias are each one block,
  fetched once. At grid point (i, j) the body writes, whole, block (i, j, 0) of the 2048×2048×32 array and block (i, j) of
  the 2048×2048 array, each a function of the four input blocks alone; the body also reads what those two staging buffers
  held before, and uses nothing of it.
-/
import proofs.«109483_j54228257080068_1_alg».proof.Proof.Gen.KernelIdeal.Launch
import proofs.«109483_j54228257080068_1_alg».proof.Proof.Gen.KernelIdeal.Skeleton
import proofs.«109483_j54228257080068_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: no host operation comes before it, so they are the launch contents. -/
abbrev V0 (c : Dev nD) : Valuation τ sig (Elt F) := StableHlo.after (List.flatten ([] : List (List (HloOp τ sig (Elt F))))) (fun b => m (c, b))
/-- The same, read at a TensorCore reference. -/
abbrev V (c : Dev nD) (b : Ref sig .tc) : Buf (Elt F) ((c : Thread nD τ).loc b) := V0 m c (Proc.devRef .tc b)

/-- The host operations after the region allocate nothing. -/
theorem hostOps1_fresh : (hostOps1 : List (HloOp τ sig (Elt F))).Forall fun op => op.fresh = ∅ := by
  simp only [List.Forall]; repeat' constructor

/-- The program is its region followed by the 23 host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether that point fetched it or the block index
    has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rNodes : Rect S128x16 := Rect.unit (s := S128x16) ![0, 0] S128x16.size Facts₀.inb_S128x16_S128x16_0_0
abbrev rWeights : Rect S1x32 := Rect.unit (s := S1x32) ![0, 0] S1x32.size Facts₀.inb_S1x32_S1x32_0_0
abbrev rBias : Rect S1 := Rect.unit (s := S1) ![0] S1.size Facts₀.inb_S1_S1_0
abbrev rEmb : Rect S128x128x32 := Rect.unit (s := S128x128x32) ![0, 0, 0] S128x128x32.size Facts₀.inb_S128x128x32_S128x128x32_0_0_0
abbrev rScore : Rect S128x128 := Rect.unit (s := S128x128) ![0, 0] S128x128.size Facts₀.inb_S128x128_S128x128_0_0

/-- What the body leaves in the embeddings' staging buffer: its one store, of the whole block. -/
def outEmb (x0 x1 : Vec F S128x16 .f32) : Vec F S128x128x32 .f32 :=
  View.canon [⟨rEmb, k0_pay3 (View.ld x0 rNodes) (View.ld x1 rNodes)⟩]
/-- What the body leaves in the results' staging buffer: its one store, of the whole block. -/
def outScore (x0 x1 : Vec F S128x16 .f32) (x2 : Vec F S1x32 .f32) (x3 : Vec F S1 .f32) : Vec F S128x128 .f32 :=
  View.canon [⟨rScore, k0_pay4 (View.ld x0 rNodes) (View.ld x1 rNodes) (View.ld x2 rWeights) (View.ld x3 rBias)⟩]

/-- The one store covers the embeddings' buffer. -/
theorem coverEmb (p0 : Vec F S128x128x32 .f32) (y : S128x128x32.Idx) :
    ∃ pc ∈ ([⟨rEmb, p0⟩] : List (View.Piece (Elt F) S128x128x32 .f32)), y ∈ pc.1.set :=
  View.cover_of_tiled [⟨rEmb, p0⟩] S128x128x32.size (by rfl) y
/-- The one store covers the results' buffer. -/
theorem coverScore (p0 : Vec F S128x128 .f32) (y : S128x128.Idx) :
    ∃ pc ∈ ([⟨rScore, p0⟩] : List (View.Piece (Elt F) S128x128 .f32)), y ∈ pc.1.set :=
  View.cover_of_tiled [⟨rScore, p0⟩] S128x128.size (by rfl) y

/-! ## The body's triple -/

set_option maxHeartbeats 1000000 in
/-- The body on whole staging buffers — the four inputs' at contents `x0 … x3`, the two outputs' at anything — runs to the
    continuation holding the inputs' as they were and the outputs' at `outEmb` and `outScore` of the inputs'. -/
theorem sound_kernel (c : Dev nD) (E : Set ℕ) (i : grid0.Coords)
    (arg2 : Memref sig .tc .vmem S128x16 .f32) (harg2 : arg2.IsWhole) (arg3 : Memref sig .tc .vmem S128x16 .f32) (harg3 : arg3.IsWhole)
    (arg4 : Memref sig .tc .vmem S1x32 .f32) (harg4 : arg4.IsWhole) (arg5 : Memref sig .tc .vmem S1 .f32) (harg5 : arg5.IsWhole)
    (arg6 : Memref sig .tc .vmem S128x128x32 .f32) (harg6 : arg6.IsWhole) (arg7 : Memref sig .tc .vmem S128x128 .f32) (harg7 : arg7.IsWhole)
    (x0 x1 : Vec F S128x16 .f32) (x2 : Vec F S1x32 .f32) (x3 : Vec F S1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outEmb x0 x1) ∗ owns (c : Thread nD τ) arg7 fullShare (outScore x0 x1 x2 x3)) -∗ K ⟨⟩))
      ⊢ wp frame (wpE (defs₀ (F := F)) Variants.none c none) E (cc0__edge_kernel i arg2 harg2 arg3 harg3 arg4 harg4 arg5 harg5 arg6 harg6 arg7 harg7) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverEmb _)
  · iexists _; isplitr
    swap; · iexact H5
    ipureintro
    exact View.read_writes_eq_canon _ _ _ (coverScore _)

/-! ## The pipeline's proof data -/

/-- The bookkeeping of the one pipeline on core `c`. The arrays are as the region finds them; after the body at point `t` each
    input's buffer holds its block and each output's what the body stored; the body keeps nothing between points but the
    core's scratch; nothing is owed. The node table stands behind windows 0 and 1: window 0 holds the left half of its
    full share and window 1 the right half; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outEmb (iblk m c 0 t) (iblk m c 1 t)
    | ⟨5, _⟩ => outScore (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outEmb (iblk m c 0 t) (iblk m c 1 t) := by dsimp only [dats]
theorem after0_5 (c : Dev nD) (t : Fin cfg0.N) :
    (dats m 0 c).after 5 t = outScore (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The shares the arrays are held at. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the four inputs' buffers hold their blocks, so the body's triple applies; the scratch and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays and the buffers behind them -/

/-- The pipeline's arrays, each whole: window by window, the buffer behind it at the window's share. -/
theorem arrays_open (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_arg2) ↦{fullShare} G 2) ∗ (((c.tc : Thread nD τ).loc main_arg3) ↦{fullShare} G 3)
          ∗ (((c.tc : Thread nD τ).loc main_v0_0) ↦{fullShare} G 4) ∗ (((c.tc : Thread nD τ).loc main_v0_1) ↦{fullShare} G 5)) := by
  have h : ((dats m 0 c).arrays G : sProp 𝕄)
      = bigSep Finset.univ fun w => (((c.tc : Thread nD τ).loc (Pipeline.arrRef spec0 w)) ↦{(dats m 0 c).share w} G w : sProp 𝕄) := by
    unfold Dat.arrays
    exact bigSep_congr fun w _ => by rw [(arr_whole0 w).set_eq_univ]
  rw [h, bigSep_W0, share0, share1, share2, share3, share4, share5]

/-- The five distinct buffers behind the six windows, each whole at the full share. -/
theorem arrBufs_open (c : Dev nD) (Wv : (b : Ref sig .tc) → Buf (Elt F) ((c.tc : Thread nD τ).loc b)) :
    (Pipeline.arrBufs (Ix := Unit) (Name := ℕ) (U := UR sig nD τ) (Lvl := ℕ) spec0 c Wv : sProp 𝕄)
      = iprop((((c.tc : Thread nD τ).loc main_arg0) ↦{fullShare} Wv main_arg0)
          ∗ (((c.tc : Thread nD τ).loc main_arg2) ↦{fullShare} Wv main_arg2) ∗ (((c.tc : Thread nD τ).loc main_arg3) ↦{fullShare} Wv main_arg3)
          ∗ (((c.tc : Thread nD τ).loc main_v0_0) ↦{fullShare} Wv main_v0_0) ∗ (((c.tc : Thread nD τ).loc main_v0_1) ↦{fullShare} Wv main_v0_1)) := by
  unfold Pipeline.arrBufs
  rw [bigSep_eq_bigSepL_of_eq [main_arg0, main_arg2, main_arg3, main_v0_0, main_v0_1] (by decide) (by decide)]
  rfl

/-- The buffers behind the arrays, held whole, are the arrays at the windows' shares: the node table's full share is dealt
    as its two halves to the two windows that read it. -/
theorem arrays_of_bufs (c : Dev nD) (G : (w : Fin cfg0.W) → Buf (Elt F) ((cfg0.win w).arr.view.loc (c.tc : Thread nD τ)))
    (Wv : (b : Ref sig .tc) → Buf (Elt F) ((c.tc : Thread nD τ).loc b))
    (h0 : G 0 = Wv main_arg0) (h1 : G 1 = Wv main_arg0) (h2 : G 2 = Wv main_arg2) (h3 : G 3 = Wv main_arg3)
    (h4 : G 4 = Wv main_v0_0) (h5 : G 5 = Wv main_v0_1) :
    (Pipeline.arrBufs (Ix := Unit) (Name := ℕ) (U := UR sig nD τ) (Lvl := ℕ) spec0 c Wv : sProp 𝕄) ⊢ (dats m 0 c).arrays G := by
  rw [arrays_open, arrBufs_open, h0, h1, h2, h3, h4, h5]
  iintro ⟨H0, H2, H3, H4, H5⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  isplitl [H4]; · iexact H4
  iexact H5

/-- And back: the two halves of the node table, at the same contents, are the table whole. -/
theorem bufs_of_arrays (c : Dev nD) (G : (w : Fin cfg0.W) → Buf (Elt F) ((cfg0.win w).arr.view.loc (c.tc : Thread nD τ)))
    (Wv : (b : Ref sig .tc) → Buf (Elt F) ((c.tc : Thread nD τ).loc b))
    (h0 : G 0 = Wv main_arg0) (h1 : G 1 = Wv main_arg0) (h2 : G 2 = Wv main_arg2) (h3 : G 3 = Wv main_arg3)
    (h4 : G 4 = Wv main_v0_0) (h5 : G 5 = Wv main_v0_1) :
    ((dats m 0 c).arrays G : sProp 𝕄) ⊢ Pipeline.arrBufs (Ix := Unit) (Name := ℕ) (U := UR sig nD τ) (Lvl := ℕ) spec0 c Wv := by
  rw [arrays_open, arrBufs_open, h0, h1, h2, h3, h4, h5]
  iintro ⟨Hl, Hr, H2, H3, H4, H5⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  iexact H5

/-- At the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_of_bufs m c _ _ (A_eq m c 0) (A_eq m c 1) (A_eq m c 2) (A_eq m c 3) (A_eq m c 4) (A_eq m c 5)

/-- The unscoped buffers are the buffers behind the arrays and the ones that bypass the region. -/
theorem unscoped_split (c : Dev nD) (Wv : (b : Ref sig .tc) → Buf (Elt F) ((c.tc : Thread nD τ).loc b)) :
    (unscopedBufs (Ix := Unit) (Name := ℕ) (U := UR sig nD τ) (Lvl := ℕ) c Wv : sProp 𝕄)
      = iprop((Pipeline.arrBufs (Ix := Unit) (Name := ℕ) (U := UR sig nD τ) (Lvl := ℕ) spec0 c Wv : sProp 𝕄)
          ∗ Pipeline.unscopedRest (Ix := Unit) (Name := ℕ) (U := UR sig nD τ) (Lvl := ℕ) spec0 c Wv) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-! ## The contents at the region's exit and after the lines that follow -/

/-- The buffers' contents when the region is left: the two arrays it wrote at their final contents, every other buffer as
    the region found it. -/
def Wexit (c : Dev nD) : Valuation τ sig (Elt F) := fun b =>
  if h : b = Proc.devRef .tc main_v0_0 then
    cast (congrArg (fun b' : DevRef τ sig => b'.ty.Contents (Elt F)) h.symm) ((dats m 0 c).arrAt 4 cfg0.N)
  else if h : b = Proc.devRef .tc main_v0_1 then
    cast (congrArg (fun b' : DevRef τ sig => b'.ty.Contents (Elt F)) h.symm) ((dats m 0 c).arrAt 5 cfg0.N)
  else V0 m c b

theorem Wexit_emb (c : Dev nD) : Wexit m c (Proc.devRef .tc main_v0_0) = (dats m 0 c).arrAt 4 cfg0.N := by
  unfold Wexit; rw [dif_pos rfl]; rfl
theorem Wexit_score (c : Dev nD) : Wexit m c (Proc.devRef .tc main_v0_1) = (dats m 0 c).arrAt 5 cfg0.N := by
  unfold Wexit; rw [dif_neg (StableHlo.devRef_ne_of_ne (by decide)), dif_pos rfl]; rfl
theorem Wexit_other (c : Dev nD) (b : Ref sig .tc) (h0 : b ≠ main_v0_0) (h1 : b ≠ main_v0_1) :
    Wexit m c (Proc.devRef .tc b) = V m c b := by
  unfold Wexit; rw [dif_neg (StableHlo.devRef_ne_of_ne h0), dif_neg (StableHlo.devRef_ne_of_ne h1)]

/-- The contents after the 23 host operations that follow the region. -/
def Wafter (c : Dev nD) : Valuation τ sig (Elt F) := StableHlo.after hostOps1 (Wexit m c)

/-- The lines write none of the five buffers behind the arrays. -/
theorem Wafter_kept (c : Dev nD) (b : Ref sig .tc) (hb : b = main_arg0 ∨ b = main_arg2 ∨ b = main_arg3 ∨ b = main_v0_0 ∨ b = main_v0_1) :
    Wafter m c (Proc.devRef .tc b) = Wexit m c (Proc.devRef .tc b) := by
  unfold Wafter
  refine StableHlo.after_of_forall_not_mem (b := Proc.devRef .tc b) _ _ (List.forall_iff_forall_mem.mp ?_)
  rcases hb with rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- An input array is never written: it ends as the region found it. -/
theorem arrAt_in0 (c : Dev nD) (n : Nat) : (dats m 0 c).arrAt 0 n = V m c main_arg0 := ((dats m 0 c).arrAt_in 0 rfl n).trans (A_eq m c 0)
theorem arrAt_in1 (c : Dev nD) (n : Nat) : (dats m 0 c).arrAt 1 n = V m c main_arg0 := ((dats m 0 c).arrAt_in 1 rfl n).trans (A_eq m c 1)
theorem arrAt_in2 (c : Dev nD) (n : Nat) : (dats m 0 c).arrAt 2 n = V m c main_arg2 := ((dats m 0 c).arrAt_in 2 rfl n).trans (A_eq m c 2)
theorem arrAt_in3 (c : Dev nD) (n : Nat) : (dats m 0 c).arrAt 3 n = V m c main_arg3 := ((dats m 0 c).arrAt_in 3 rfl n).trans (A_eq m c 3)

/-- A buffer that bypasses the region is none of the two arrays the region wrote. -/
theorem rest_ne (b : Ref sig .tc) (hb : b ∈ Pipeline.restRefs sig spec0) : b ≠ main_v0_0 ∧ b ≠ main_v0_1 := by
  have h := (Finset.mem_sdiff.mp hb).2
  exact ⟨fun e => h (Finset.mem_image.mpr ⟨4, Finset.mem_univ _, e.symm⟩), fun e => h (Finset.mem_image.mpr ⟨5, Finset.mem_univ _, e.symm⟩)⟩

/-! ## The lines after the region -/

-- a rule stated for any thread, applied at the TensorCore thread, unifies only when unification may unfold plain
-- definitions in a metavariable's type
set_option backward.isDefEq.respectTransparency.types false in
/-- From the region's exit — the arrays at their final contents, the bypassing buffers as the region found them — the 23
    host operations run, within the unscoped buffers (the node table's halves put together for the while), and hand back the
    arrays as they were and the bypassing buffers at what the operations compute. -/
theorem htail (𝒱₀ : Variants) (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Wafter m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) (defs₀ (F := F))) (Variants.lift 𝒱₀) (c.tc : Thread nD τ) none) Set.univ
          (Pipeline.chain [StableHlo.seq (hostOps1 (F := F))]) Q' := by
  classical
  -- the bypassing buffers at the exit contents are those at the entry contents
  have hrest : (Pipeline.unscopedRest (Ix := Unit) (Name := ℕ) (U := UR sig nD τ) (Lvl := ℕ) spec0 c (fun b => Wexit m c (Proc.devRef .tc b)) : sProp 𝕄)
      = Pipeline.unscopedRest (Ix := Unit) (Name := ℕ) (U := UR sig nD τ) (Lvl := ℕ) spec0 c (V m c) := by
    unfold Pipeline.unscopedRest
    exact bigSep_congr fun b hb => by
      show (((c.tc : Thread nD τ).loc b) ↦{fullShare} Wexit m c (Proc.devRef .tc b) : sProp 𝕄) = _
      rw [Wexit_other m c b (rest_ne b hb).1 (rest_ne b hb).2]
  have hexit : (StableHlo.held (c.tc : Thread nD τ) (Pipeline.ucRefs τ sig) (Wexit m c) : sProp 𝕄)
      = iprop((Pipeline.arrBufs (Ix := Unit) (Name := ℕ) (U := UR sig nD τ) (Lvl := ℕ) spec0 c (fun b => Wexit m c (Proc.devRef .tc b)) : sProp 𝕄)
          ∗ Pipeline.unscopedRest (Ix := Unit) (Name := ℕ) (U := UR sig nD τ) (Lvl := ℕ) spec0 c (V m c)) := by
    rw [← Pipeline.unscopedBufs_held (Ix := Unit) (Name := ℕ) (U := UR sig nD τ) (Lvl := ℕ) c (Wexit m c), unscoped_split, hrest]
  have hafter : (StableHlo.held (c.tc : Thread nD τ) (Pipeline.ucRefs τ sig) (Wafter m c) : sProp 𝕄)
      = iprop((Pipeline.arrBufs (Ix := Unit) (Name := ℕ) (U := UR sig nD τ) (Lvl := ℕ) spec0 c (fun b => Wafter m c (Proc.devRef .tc b)) : sProp 𝕄)
          ∗ Pipeline.unscopedRest (Ix := Unit) (Name := ℕ) (U := UR sig nD τ) (Lvl := ℕ) spec0 c (fun b => Wafter m c (Proc.devRef .tc b))) := by
    rw [← Pipeline.unscopedBufs_held (Ix := Unit) (Name := ℕ) (U := UR sig nD τ) (Lvl := ℕ) c (Wafter m c), unscoped_split]
  have hseq := Pipeline.wp_seqs_then (Ix := Unit) (Name := ℕ) (U := UR sig nD τ) (Lvl := ℕ) (fun q => Cfg.toPCfg (Val := Elt F) (cfgs q)) (defs₀ (F := F)) 𝒱₀ c
    (Pipeline.ucRefs τ sig) [] (K := Q') [hostOps1 (F := F)]
    (fun ops hops op hop => by
      simp only [List.mem_cons, List.mem_nil_iff, _root_.or_false] at hops
      rcases hops with rfl
      exact Pipeline.sub_ucRefs op ((List.forall_iff_forall_mem.mp hostOps1_sub) op hop))
    (fun ops hops op hop => by
      simp only [List.mem_cons, List.mem_nil_iff, _root_.or_false] at hops
      rcases hops with rfl
      exact (List.forall_iff_forall_mem.mp hostOps1_fresh) op hop)
    (Wexit m c)
  rw [List.append_nil, show ([hostOps1 (F := F)] : List (List (HloOp τ sig (Elt F)))).flatten = hostOps1 from by simp only [List.flatten_cons, List.flatten_nil, List.append_nil]] at hseq
  have hexit' := Entails.of_eq hexit.symm
  have hafter' : (StableHlo.held (c.tc : Thread nD τ) (Pipeline.ucRefs τ sig) (StableHlo.after (hostOps1 (F := F)) (Wexit m c)) : sProp 𝕄)
      ⊢ iprop((Pipeline.arrBufs (Ix := Unit) (Name := ℕ) (U := UR sig nD τ) (Lvl := ℕ) spec0 c (fun b => Wafter m c (Proc.devRef .tc b)) : sProp 𝕄)
          ∗ Pipeline.unscopedRest (Ix := Unit) (Name := ℕ) (U := UR sig nD τ) (Lvl := ℕ) spec0 c (fun b => Wafter m c (Proc.devRef .tc b))) :=
    Entails.of_eq hafter
  have hjoin := bufs_of_arrays m c (fun w => (dats m 0 c).arrAt w cfg0.N) (fun b => Wexit m c (Proc.devRef .tc b))
    ((arrAt_in0 m c _).trans (Wexit_other m c main_arg0 (by decide) (by decide)).symm)
    ((arrAt_in1 m c _).trans (Wexit_other m c main_arg0 (by decide) (by decide)).symm)
    ((arrAt_in2 m c _).trans (Wexit_other m c main_arg2 (by decide) (by decide)).symm)
    ((arrAt_in3 m c _).trans (Wexit_other m c main_arg3 (by decide) (by decide)).symm)
    (Wexit_emb m c).symm (Wexit_score m c).symm
  have hdeal := arrays_of_bufs m c (fun w => (dats m 0 c).arrAt w cfg0.N) (fun b => Wafter m c (Proc.devRef .tc b))
    ((arrAt_in0 m c _).trans ((Wexit_other m c main_arg0 (by decide) (by decide)).symm.trans (Wafter_kept m c main_arg0 (.inl rfl)).symm))
    ((arrAt_in1 m c _).trans ((Wexit_other m c main_arg0 (by decide) (by decide)).symm.trans (Wafter_kept m c main_arg0 (.inl rfl)).symm))
    ((arrAt_in2 m c _).trans ((Wexit_other m c main_arg2 (by decide) (by decide)).symm.trans (Wafter_kept m c main_arg2 (.inr (.inl rfl))).symm))
    ((arrAt_in3 m c _).trans ((Wexit_other m c main_arg3 (by decide) (by decide)).symm.trans (Wafter_kept m c main_arg3 (.inr (.inr (.inl rfl)))).symm))
    ((Wexit_emb m c).symm.trans (Wafter_kept m c main_v0_0 (.inr (.inr (.inr (.inl rfl))))).symm)
    ((Wexit_score m c).symm.trans (Wafter_kept m c main_v0_1 (.inr (.inr (.inr (.inr rfl))))).symm)
  iintro ⟨Hk, Hbd, HA, HZ⟩
  ihave HB := hjoin $$ HA
  ihave Hh := hexit' $$ [HB HZ]
  · isplitl [HB]; · iexact HB
    iexact HZ
  iapply hseq $$ [Hbd Hh]
  · isplitl [Hbd]; · iexact Hbd
    iexact Hh
  iintro ⟨Hbd, Hh⟩
  rw [Pipeline.chain_nil, wp_pure]
  imodintro
  iapply Hk
  ihave Hh' := hafter' $$ Hh
  icases Hh' with ⟨HB, HR⟩
  isplitl [HB]
  · iapply hdeal; iexact HB
  · iexact HR

/-! ## The run -/

set_option backward.isDefEq.respectTransparency.types false in
/-- From any memory with zero counters, every weakly fair execution of the program terminates, every array of the pipeline
    ending at what the bookkeeping computes and every other unscoped buffer at what the 23 operations after the region
    compute from the region's exit contents. -/
theorem run_main : θ_run defs (onTc (τ := τ) (main (F := F))) (s₀ m ρ)
    (Pipeline.FramePost cfgs (dats m) 0 (fun c b => Wafter m c (Proc.devRef .tc b))) :=
  Pipeline.θ_run_region_noSem_pf_tail (fun p => (cfgs p).toPCfg) (fun p => (cfgs p).toPCfg_adm) (dats m) () cellOf_inj (0 : Fin 1) winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := BI.Entails.refl _)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Wafter m c (Proc.devRef .tc b)))
    (hX := fun c => by
      rw [Pipeline.unscopedRestP_none]
      iintro H; isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, H⟩; iexact H))
    (hout := fun c => (show (Pipeline.scopedRest (Ix := Unit) (Name := ℕ) (U := UR sig nD τ) (Lvl := ℕ) (Val := Elt F) spec0 c : sProp 𝕄) ⊢ _ from by
      iintro H; isplitr; · iempintro
      iexact H))
    (htail := htail m Variants.none)
    (QY := fun c s => ∀ b ∈ Pipeline.restRefs sig spec0, s.mem ((c.tc : Thread nD τ).loc b) = Wafter m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Wafter m c (Proc.devRef .tc b)) s')
      isplitl [HU] <;> iassumption)
    (hQ := fun s h c => ⟨(h c).1, (h c).2.2⟩)

/-- info: 'Cert.KernelIdeal.Region.run_main' depends on axioms: [propext, Classical.choice, Quot.sound] -/
#guard_msgs in #print axioms run_main

/-! ## The frame -/

/-- The integer input bypasses the region and no line after it writes it. -/
theorem Wafter_arg1 (c : Dev nD) : Wafter m c (Proc.devRef .tc main_arg1) = m ((c : Thread nD τ).loc main_arg1) := by
  unfold Wafter
  rw [StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact Wexit_other m c main_arg1 (by decide) (by decide)

/-- THE FRAME: the program runs to the end, faults nowhere and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (arrAt_in0 m c _),
     ((h c).2 main_arg1 (Pipeline.mem_restRefs_of main_arg1 (by decide) (by decide))).trans (Wafter_arg1 m c),
     ((h c).1 2).trans (arrAt_in2 m c _),
     ((h c).1 3).trans (arrAt_in3 m c _)⟩) (run_main m ρ)

end Cert.KernelIdeal.Region

end
-- ==== Proof.Spec.lean ====
/-
  What the three results are, as functions of the argument arrays, on the extended reals.

  There are 2048 nodes, each with 16 coordinates `e (a, k)`. A PAIR is an ordered pair of nodes `(a, c)`; the pairs are
  numbered row by row, pair `p` being `(p / 2048, p % 2048)`.

  * The pair's embedding is the 32 numbers `e (a, 0..15)` followed by `e (c, 0..15)`.
  * The pair's score is `Σ_k e (a, k) · w (0, k) + Σ_k e (c, k) · w (0, 16 + k) + b 0` when the two nodes differ somewhere,
    that is when `Σ_k |e (a, k) − e (c, k)|` is positive, and the constant −10 when it is not.
  Both are stated first on the square of pairs (node by node), then on the numbered list of pairs.
-/
import Idealize.ShloMosaic.PureOps.Ideal
import Idealize.ShloMosaic.Lib.ValueIdx

noncomputable section

open scoped BigOperators

namespace Cert.EdgeSpec

open Idealize.ShloMosaic Idealize.ShloMosaic.ValueIdx

/-- The node table, the weight row, the bias, the square of pairs with and without the 32 coordinates, and the same two
    laid out as a numbered list of pairs. -/
abbrev SNodes : Shape := ⟨2, ![2048, 16]⟩
abbrev SWeights : Shape := ⟨2, ![1, 32]⟩
abbrev SBias : Shape := ⟨1, ![1]⟩
abbrev SSquare32 : Shape := ⟨3, ![2048, 2048, 32]⟩
abbrev SSquare : Shape := ⟨2, ![2048, 2048]⟩
abbrev SPairs32 : Shape := ⟨2, ![4194304, 32]⟩
abbrev SPairs : Shape := ⟨1, ![4194304]⟩

/-- The first node of pair `p`. -/
def fstNode (p : Fin 4194304) : Fin 2048 := ⟨p.val / 2048, by have := p.isLt; omega⟩
/-- The second node of pair `p`. -/
def sndNode (p : Fin 4194304) : Fin 2048 := ⟨p.val % 2048, Nat.mod_lt _ (by norm_num)⟩

/-- Coordinate `k` of the embedding of the pair `(a, c)`: the first node's below 16, the second node's from 16 on. -/
def embAt (e : SNodes.Idx → EReal) (a c : Fin 2048) (k : Fin 32) : EReal :=
  if h : k.val < 16 then e (ix2 a ⟨k.val, h⟩) else e (ix2 c ⟨k.val - 16, by have := k.isLt; omega⟩)

/-- How far apart the two nodes are: the sum over the coordinates of the absolute differences. -/
def apart (e : SNodes.Idx → EReal) (a c : Fin 2048) : EReal :=
  ∑ k : Fin 16, max (e (ix2 a k) - e (ix2 c k)) (-(e (ix2 a k) - e (ix2 c k)))

/-- The linear score of the pair: the first node against the first 16 weights, the second against the last 16, and the bias. -/
def score (e : SNodes.Idx → EReal) (w : SWeights.Idx → EReal) (b : SBias.Idx → EReal) (a c : Fin 2048) : EReal :=
  (∑ k : Fin 16, e (ix2 a k) * w (ix2 (0 : Fin 1) ⟨k.val, by have := k.isLt; omega⟩))
    + (∑ k : Fin 16, e (ix2 c k) * w (ix2 (0 : Fin 1) ⟨16 + k.val, by have := k.isLt; omega⟩))
    + b (ix1 (0 : Fin 1))

/-- The pair's result: its score where the nodes differ, −10 where they do not. -/
def maskedScore (e : SNodes.Idx → EReal) (w : SWeights.Idx → EReal) (b : SBias.Idx → EReal) (a c : Fin 2048) : EReal :=
  Scalar.select (Ideal.cmp .ogt (apart e a c) (Ideal.ofBits .f32 0x00000000#32)) (score e w b a c)
    (Ideal.ofBits .f32 0xC1200000#32)

/-- The embeddings on the square of pairs. -/
def embSquare (e : SNodes.Idx → EReal) : SSquare32.Idx → EReal := fun j => embAt e (j 0) (j 1) (j 2)
/-- The results on the square of pairs. -/
def scoreSquare (e : SNodes.Idx → EReal) (w : SWeights.Idx → EReal) (b : SBias.Idx → EReal) : SSquare.Idx → EReal :=
  fun j => maskedScore e w b (j 0) (j 1)

/-- The embeddings on the numbered list of pairs. -/
def embPairs (e : SNodes.Idx → EReal) : SPairs32.Idx → EReal := fun i => embAt e (fstNode (i 0)) (sndNode (i 0)) (i 1)
/-- The results on the numbered list of pairs. -/
def scorePairs (e : SNodes.Idx → EReal) (w : SWeights.Idx → EReal) (b : SBias.Idx → EReal) : SPairs.Idx → EReal :=
  fun i => maskedScore e w b (fstNode (i 0)) (sndNode (i 0))

theorem embPairs_apply (e : SNodes.Idx → EReal) (p : Fin 4194304) (k : Fin 32) :
    embPairs e (ix2 p k) = embSquare e (ix3 (fstNode p) (sndNode p) k) := rfl

theorem scorePairs_apply (e : SNodes.Idx → EReal) (w : SWeights.Idx → EReal) (b : SBias.Idx → EReal) (p : Fin 4194304) :
    scorePairs e w b (ix1 p) = scoreSquare e w b (ix2 (fstNode p) (sndNode p)) := rfl

end Cert.EdgeSpec

end
-- ==== Proof.BlockValue.lean ====
/-
  The body's two stored values read at one entry, on the extended reals.

  The body receives two blocks of 128 node rows, `x0` and `x1` (16 coordinates per row), the weight row `w`
  (32 numbers) and the bias `b`. It forms two 128 × 128 × 16 arrays: in the first, entry `(p, q, k)` is
  `x0 (p, k)` (row `p` of the first block repeated along the second axis); in the second it is `x1 (q, k)`
  (row `q` of the second block repeated along the first axis).

  * The first stored value joins the two along the last axis: at `(p, q, k)` it is `x0 (p, k)` for `k < 16` and
    `x1 (q, k − 16)` from 16 on.
  * The second stored value is, at `(p, q)`: where `Σ_k |x0 (p, k) − x1 (q, k)|` is positive, the number
    `Σ_k x0 (p, k) · w (0, k) + Σ_k x1 (q, k) · w (0, 16 + k) + b 0`; elsewhere the constant −10.

  Every step below is a reading at ONE index: a reshape keeps the row-major position, a broadcast forgets the repeated
  coordinate, a slice shifts a coordinate by its offset, a sum over the last axis is the sum over its 16 coordinates.
-/
import proofs.«109483_j54228257080068_1_alg».proof.Proof.Spec
import proofs.«109483_j54228257080068_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.EdgeBlock

open Idealize.ShloMosaic Idealize.ShloMosaic.ValueIdx
open Cert.KernelIdeal (S128x16 S1x32 S1 S128x1x16 S1x128x16 S128x128x16 S128x128x32 S128x128 S1x16 S16 S1x1x16)

/-! ## The two repeated blocks -/

/-- A 128 × 16 block viewed as 128 × 1 × 16 and repeated 128 times along the middle axis reads, at `(p, q, k)`, the
    block at `(p, k)`. -/
theorem rowsRepeated_apply (x : S128x16.Idx → EReal) (h1 : S128x16.ShapeCasts S128x1x16) (h2 : S128x1x16.ShapeCasts S128x1x16)
    (h3 : S128x1x16.Broadcasts S128x128x16) (p q : Fin 128) (k : Fin 16) :
    broadcastTo S128x128x16 (shapeCast S128x1x16 (shapeCast S128x1x16 x h1) h2) h3 (ix3 p q k) = x (ix2 p k) := by
  rw [shapeCast_self]
  refine (broadcastTo_apply _ h3 (ix3 p q k) (ix3 p (0 : Fin 1) k) fun a => ?_).trans ?_
  · match a with
    | ⟨0, _⟩ => rfl
    | ⟨1, _⟩ => rfl
    | ⟨2, _⟩ => rfl
  · refine shapeCast_apply x h1 (ix3 p (0 : Fin 1) k) (ix2 p k) ?_
    rw [Shape.rowMajor_val_two, Shape.rowMajor_val_three]
    show p.val * 16 + k.val = (p.val * 1 + 0) * 16 + k.val
    omega

/-- A 128 × 16 block viewed as 1 × 128 × 16 and repeated 128 times along the first axis reads, at `(p, q, k)`, the
    block at `(q, k)`. -/
theorem colsRepeated_apply (x : S128x16.Idx → EReal) (h1 : S128x16.ShapeCasts S1x128x16) (h2 : S1x128x16.ShapeCasts S1x128x16)
    (h3 : S1x128x16.Broadcasts S128x128x16) (p q : Fin 128) (k : Fin 16) :
    broadcastTo S128x128x16 (shapeCast S1x128x16 (shapeCast S1x128x16 x h1) h2) h3 (ix3 p q k) = x (ix2 q k) := by
  rw [shapeCast_self]
  refine (broadcastTo_apply _ h3 (ix3 p q k) (ix3 (0 : Fin 1) q k) fun a => ?_).trans ?_
  · match a with
    | ⟨0, _⟩ => rfl
    | ⟨1, _⟩ => rfl
    | ⟨2, _⟩ => rfl
  · exact shapeCast_ab_1ab_apply x h1 (0 : Fin 1) q k

/-- The first repeated block of the body at `(p, q, k)` is `x0 (p, k)`. -/
theorem pay1_apply (x0 : Vec Ideal S128x16 .f32) (p q : Fin 128) (k : Fin 16) :
    Cert.KernelIdeal.Gen.k0_pay1 (F := Ideal) x0 (ix3 p q k) = x0 (ix2 p k) := by
  unfold Cert.KernelIdeal.Gen.k0_pay1
  exact rowsRepeated_apply x0 _ _ _ p q k

/-- The second repeated block of the body at `(p, q, k)` is `x1 (q, k)`. -/
theorem pay2_apply (x1 : Vec Ideal S128x16 .f32) (p q : Fin 128) (k : Fin 16) :
    Cert.KernelIdeal.Gen.k0_pay2 (F := Ideal) x1 (ix3 p q k) = x1 (ix2 q k) := by
  unfold Cert.KernelIdeal.Gen.k0_pay2
  exact colsRepeated_apply x1 _ _ _ p q k

/-! ## The first stored value: the two repeated blocks side by side -/

/-- THE EMBEDDING BLOCK AT AN ENTRY: the concatenation along the last axis reads, at `(p, q, k)`, the first block's row
    `p` at `k` below 16 and the second block's row `q` at `k − 16` from 16 on. -/
theorem emb_block_apply (x0 x1 : Vec Ideal S128x16 .f32) (p q : Fin 128) (k : Fin 32) :
    Cert.KernelIdeal.Gen.k0_pay3 (F := Ideal) x0 x1 (ix3 p q k)
      = if h : k.val < 16 then x0 (ix2 p ⟨k.val, h⟩) else x1 (ix2 q ⟨k.val - 16, by have := k.isLt; omega⟩) := by
  unfold Cert.KernelIdeal.Gen.k0_pay3
  by_cases h : k.val < 16
  · rw [dif_pos h]
    refine (concatenate_pair_apply_left (s₁ := S128x128x16) (s₂ := S128x128x16) _ _ _ _ (ix3 p q k) rfl (ix3 p q (⟨k.val, h⟩ : Fin 16)) fun c => ?_).trans
      (pay1_apply x0 p q ⟨k.val, h⟩)
    match c with
    | ⟨0, _⟩ => rfl
    | ⟨1, _⟩ => rfl
    | ⟨2, _⟩ => rfl
  · rw [dif_neg h]
    have hk : k.val - 16 < 16 := by have := k.isLt; omega
    refine (concatenate_pair_apply_right (s₁ := S128x128x16) (s₂ := S128x128x16) _ _ _ _ (ix3 p q k) rfl rfl (ix3 p q (⟨k.val - 16, hk⟩ : Fin 16))
      (fun c hc => ?_) ?_).trans (pay2_apply x1 p q ⟨k.val - 16, hk⟩)
    · match c, hc with
      | ⟨0, _⟩, _ => rfl
      | ⟨1, _⟩, _ => rfl
      | ⟨2, _⟩, hc => exact absurd rfl hc
    · show k.val - 16 + 16 = k.val
      omega

/-! ## The weight row's two halves, the bias, and a sum over the last axis -/

/-- The first half of the weight row, viewed as 1 × 1 × 16 and repeated over the 128 × 128 pairs, reads `w (0, k)`. -/
theorem weightLo_apply (w : S1x32.Idx → EReal) (h1 : S1x32.Slices ![0, 0] S1x16) (h2 : S1x16.ShapeCasts S16)
    (h3 : S16.ShapeCasts S1x1x16) (h4 : S1x1x16.Broadcasts S128x128x16) (p q : Fin 128) (k : Fin 16) :
    broadcastTo S128x128x16 (shapeCast S1x1x16 (shapeCast S16 (extractStridedSlice S1x16 ![0, 0] w h1) h2) h3) h4 (ix3 p q k)
      = w (ix2 (0 : Fin 1) ⟨k.val, by have := k.isLt; omega⟩) := by
  refine (broadcastTo_apply _ h4 (ix3 p q k) (ix3 (0 : Fin 1) (0 : Fin 1) k) fun a => ?_).trans ?_
  · match a with
    | ⟨0, _⟩ => rfl
    | ⟨1, _⟩ => rfl
    | ⟨2, _⟩ => rfl
  refine (shapeCast_apply _ h3 (ix3 (0 : Fin 1) (0 : Fin 1) k) (ix1 k) ?_).trans ?_
  · rw [Shape.rowMajor_val_one, Shape.rowMajor_val_three]
    show k.val = (0 * 1 + 0) * 16 + k.val
    omega
  refine (shapeCast_1a_a_apply _ h2 k).trans ?_
  exact slice2_axis1_apply 0 w h1 (0 : Fin 1) k ⟨k.val, by have := k.isLt; omega⟩ (Nat.zero_add _).symm

/-- The second half of the weight row, likewise, reads `w (0, 16 + k)`. -/
theorem weightHi_apply (w : S1x32.Idx → EReal) (h1 : S1x32.Slices ![0, 16] S1x16) (h2 : S1x16.ShapeCasts S16)
    (h3 : S16.ShapeCasts S1x1x16) (h4 : S1x1x16.Broadcasts S128x128x16) (p q : Fin 128) (k : Fin 16) :
    broadcastTo S128x128x16 (shapeCast S1x1x16 (shapeCast S16 (extractStridedSlice S1x16 ![0, 16] w h1) h2) h3) h4 (ix3 p q k)
      = w (ix2 (0 : Fin 1) ⟨16 + k.val, by have := k.isLt; omega⟩) := by
  refine (broadcastTo_apply _ h4 (ix3 p q k) (ix3 (0 : Fin 1) (0 : Fin 1) k) fun a => ?_).trans ?_
  · match a with
    | ⟨0, _⟩ => rfl
    | ⟨1, _⟩ => rfl
    | ⟨2, _⟩ => rfl
  refine (shapeCast_apply _ h3 (ix3 (0 : Fin 1) (0 : Fin 1) k) (ix1 k) ?_).trans ?_
  · rw [Shape.rowMajor_val_one, Shape.rowMajor_val_three]
    show k.val = (0 * 1 + 0) * 16 + k.val
    omega
  refine (shapeCast_1a_a_apply _ h2 k).trans ?_
  exact slice2_axis1_apply 16 w h1 (0 : Fin 1) k ⟨16 + k.val, by have := k.isLt; omega⟩ rfl

/-- The bias vector's one entry. -/
theorem bias_apply (b : S1.Idx → EReal) (h : ∀ a, (![0] : Fin 1 → Nat) a < S1.size a) :
    extractAt ![0] b h = b (ix1 (0 : Fin 1)) := by
  unfold extractAt
  refine congrArg b (funext fun a => Fin.ext ?_)
  match a with
  | ⟨0, _⟩ => rfl

/-- A sum over the last axis of a 128 × 128 × 16 array reads, at `(p, q)`, the sum over `k` of the entries `(p, q, k)`. -/
theorem laneSum_apply (src : FVec Ideal S128x128x16 .f32) (h : S128x128x16.Reduces [2] S128x128) (hφ : FKind.Formats .f32)
    (hacc : (0x00000000#32 : BitVec 32) = FKind.add.neutral .f32 hφ) (p q : Fin 128) :
    multiReduction (F := Ideal) .add [2] S128x128 src 0x00000000#32 h hφ hacc (ix2 p q) = ∑ k : Fin 16, src (ix3 p q k) := by
  refine (Ideal.multiReduction_add_single src _ h hφ hacc (ix2 p q)).trans ?_
  show ∑ k : Fin 16, src (h.lift (ix2 p q) k) = _
  refine Finset.sum_congr rfl fun k _ => congrArg src (funext fun c => Fin.ext ?_)
  match c with
  | ⟨0, _⟩ => rfl
  | ⟨1, _⟩ => rfl
  | ⟨2, _⟩ => rfl

/-! ## The second stored value -/

/-- The masked combination of three sums over the last axis and a constant, at `(p, q)`, once each summand is known:
    where the first sum is positive, the second plus the third plus the constant; elsewhere −10. -/
theorem masked_apply (A B C : FVec Ideal S128x128x16 .f32) (d : EReal) (h : S128x128x16.Reduces [2] S128x128)
    (hφ : FKind.Formats .f32) (hacc : (0x00000000#32 : BitVec 32) = FKind.add.neutral .f32 hφ) (p q : Fin 128)
    (a b c : Fin 16 → EReal) (d' : EReal) (hA : ∀ k, A (ix3 p q k) = a k) (hB : ∀ k, B (ix3 p q k) = b k)
    (hC : ∀ k, C (ix3 p q k) = c k) (hd : d = d') :
    select (cmpf .ogt (multiReduction (F := Ideal) .add [2] S128x128 A 0x00000000#32 h hφ hacc)
          (broadcast S128x128 (Scalar.ofBits (F := Ideal) .f32 0x00000000#32)))
        (addf (addf (multiReduction (F := Ideal) .add [2] S128x128 B 0x00000000#32 h hφ hacc)
          (multiReduction (F := Ideal) .add [2] S128x128 C 0x00000000#32 h hφ hacc)) (broadcast S128x128 d))
        (broadcast S128x128 (Scalar.ofBits (F := Ideal) .f32 0xC1200000#32)) (ix2 p q)
      = Scalar.select (Ideal.cmp .ogt (∑ k : Fin 16, a k) (Ideal.ofBits .f32 0x00000000#32))
          ((∑ k : Fin 16, b k) + (∑ k : Fin 16, c k) + d') (Ideal.ofBits .f32 0xC1200000#32) := by
  show Scalar.select (Ideal.cmp .ogt (multiReduction (F := Ideal) .add [2] S128x128 A 0x00000000#32 h hφ hacc (ix2 p q))
        (Ideal.ofBits .f32 0x00000000#32))
      (multiReduction (F := Ideal) .add [2] S128x128 B 0x00000000#32 h hφ hacc (ix2 p q)
        + multiReduction (F := Ideal) .add [2] S128x128 C 0x00000000#32 h hφ hacc (ix2 p q) + d)
      (Ideal.ofBits .f32 0xC1200000#32) = _
  rw [laneSum_apply A h hφ hacc p q, laneSum_apply B h hφ hacc p q, laneSum_apply C h hφ hacc p q, hd,
    Finset.sum_congr rfl fun k _ => hA k, Finset.sum_congr rfl fun k _ => hB k, Finset.sum_congr rfl fun k _ => hC k]

/-- THE SCORE BLOCK AT AN ENTRY: at `(p, q)`, where `Σ_k |x0 (p, k) − x1 (q, k)|` is positive the linear score of row
    `p` of the first block against the first 16 weights and row `q` of the second against the last 16, plus the bias;
    elsewhere −10. -/
theorem score_block_apply (x0 x1 : Vec Ideal S128x16 .f32) (w : Vec Ideal S1x32 .f32) (b : Vec Ideal S1 .f32) (p q : Fin 128) :
    Cert.KernelIdeal.Gen.k0_pay4 (F := Ideal) x0 x1 w b (ix2 p q)
      = Scalar.select (Ideal.cmp .ogt (∑ k : Fin 16, max (x0 (ix2 p k) - x1 (ix2 q k)) (-(x0 (ix2 p k) - x1 (ix2 q k))))
            (Ideal.ofBits .f32 0x00000000#32))
          ((∑ k : Fin 16, x0 (ix2 p k) * w (ix2 (0 : Fin 1) ⟨k.val, by have := k.isLt; omega⟩))
            + (∑ k : Fin 16, x1 (ix2 q k) * w (ix2 (0 : Fin 1) ⟨16 + k.val, by have := k.isLt; omega⟩))
            + b (ix1 (0 : Fin 1)))
          (Ideal.ofBits .f32 0xC1200000#32) := by
  unfold Cert.KernelIdeal.Gen.k0_pay4
  refine masked_apply _ _ _ _ _ _ _ p q
    (fun k => max (x0 (ix2 p k) - x1 (ix2 q k)) (-(x0 (ix2 p k) - x1 (ix2 q k))))
    (fun k => x0 (ix2 p k) * w (ix2 (0 : Fin 1) ⟨k.val, by have := k.isLt; omega⟩))
    (fun k => x1 (ix2 q k) * w (ix2 (0 : Fin 1) ⟨16 + k.val, by have := k.isLt; omega⟩))
    (b (ix1 (0 : Fin 1))) (fun k => ?_) (fun k => ?_) (fun k => ?_) ?_
  · exact congrArg₂ (fun u v : EReal => max (u - v) (-(u - v))) (pay1_apply x0 p q k) (pay2_apply x1 p q k)
  · exact congrArg₂ (fun u v : EReal => u * v) (pay1_apply x0 p q k) (weightLo_apply w _ _ _ _ p q k)
  · exact congrArg₂ (fun u v : EReal => u * v) (pay2_apply x1 p q k) (weightHi_apply w _ _ _ _ p q k)
  · exact bias_apply b _

end Cert.EdgeBlock

end
-- ==== Proof.RegionValue.lean ====
/-
  What the region's two output arrays hold at the end, as functions of the node table, the weight row and the bias.

  Grid point (i, j) writes block (i, j, 0) of the 2048×2048×32 array and block (i, j) of the 2048×2048 array. Row p of
  window 0's block at that point is row 128·i + p of the node table, and row q of window 1's block is row 128·j + q; the
  weight row and the bias are always the whole of their arrays. So entry (p, q, ·) of the block the body stores is the pair
  (128·i + p, 128·j + q)'s embedding, and entry (p, q) its result: each block written back is the restriction of ONE
  function on the square of pairs. The 16 × 16 blocks tile both arrays, so at the end each array is that function.
-/
import proofs.«109483_j54228257080068_1_alg».proof.Proof.Region
import proofs.«109483_j54228257080068_1_alg».proof.Proof.BlockValue
import proofs.«109483_j54228257080068_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.Region Cert.EdgeSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## One entry of a stored block, from the entries of the input blocks -/

/-- If row `p` of the first block is node `a` and row `q` of the second is node `c`, entry (p, q, k) of the stored block is
    coordinate `k` of the pair (a, c)'s embedding. -/
theorem emb_point (e : SNodes.Idx → EReal) (x0 x1 : Vec Ideal S128x16 .f32) (a c : Fin 2048) (p q : Fin 128) (k : Fin 32)
    (h0 : ∀ k' : Fin 16, x0 (ix2 p k') = e (ix2 a k')) (h1 : ∀ k' : Fin 16, x1 (ix2 q k') = e (ix2 c k')) :
    k0_pay3 (F := Ideal) x0 x1 (ix3 p q k) = embAt e a c k := by
  rw [Cert.EdgeBlock.emb_block_apply]
  unfold embAt
  split
  · exact h0 _
  · exact h1 _

/-- With the weight row and the bias as well, entry (p, q) of the other stored block is the pair's result. -/
theorem score_point (e : SNodes.Idx → EReal) (w : SWeights.Idx → EReal) (b : SBias.Idx → EReal)
    (x0 x1 : Vec Ideal S128x16 .f32) (x2 : Vec Ideal S1x32 .f32) (x3 : Vec Ideal S1 .f32) (a c : Fin 2048) (p q : Fin 128)
    (h0 : ∀ k' : Fin 16, x0 (ix2 p k') = e (ix2 a k')) (h1 : ∀ k' : Fin 16, x1 (ix2 q k') = e (ix2 c k'))
    (h2 : ∀ k' : Fin 32, x2 (ix2 (0 : Fin 1) k') = w (ix2 (0 : Fin 1) k')) (h3 : x3 (ix1 (0 : Fin 1)) = b (ix1 (0 : Fin 1))) :
    k0_pay4 (F := Ideal) x0 x1 x2 x3 (ix2 p q) = maskedScore e w b a c := by
  rw [Cert.EdgeBlock.score_block_apply]
  unfold maskedScore apart score
  simp only [h0, h1, h2, h3]

/-! ## The index maps, over the grid -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At every grid point: window 0's block row is the outputs' first block coordinate, window 1's the second; the weight
    row's and the bias's blocks are block 0; the outputs' block coordinates are below 16 and the third is 0. -/
theorem idx_facts : ∀ t : Fin cfg0.N,
    win0_0.index t (0 : Fin 2) = win0_4.index t (0 : Fin 3) ∧ win0_0.index t (1 : Fin 2) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 1) = 0
    ∧ win0_4.index t (2 : Fin 3) = 0 ∧ win0_4.index t (0 : Fin 3) ≤ 15 ∧ win0_4.index t (1 : Fin 3) ≤ 15
    ∧ win0_5.index t (0 : Fin 2) = win0_4.index t (0 : Fin 3) ∧ win0_5.index t (1 : Fin 2) = win0_4.index t (1 : Fin 3) :=
  (by decide +kernel : ∀ t : Fin grid0.N, _)

/-- Every pair of block coordinates below 16 is some grid point's. -/
theorem idx_onto : ∀ (q0 q1 : Fin 16), ∃ t : Fin cfg0.N, win0_4.index t = ![q0.val, q1.val, 0] :=
  (by decide +kernel : ∀ (q0 q1 : Fin 16), ∃ t : Fin grid0.N, win0_4.index t = ![q0.val, q1.val, 0])

/-! ## What a point writes back -/

/-- Rows of the two node blocks at a point, as rows of the table. -/
theorem nodes0_at (c : Dev nD) (t : Fin cfg0.N) (p : Fin 128) (k : Fin 16) (a : Fin 2048) (ha : a.val = win0_4.index t (0 : Fin 3) * 128 + p.val) :
    iblk m c 0 t (ix2 p k) = V m c main_arg0 (ix2 a k) := by
  obtain ⟨e00, e01, e10, e11, e20, e21, e30, e42, e40, e41, e50, e51⟩ := idx_facts t
  show V m c main_arg0 (((cfg0.win 0).blk t).view.emb (ix2 p k)) = V m c main_arg0 (ix2 a k)
  refine congrArg _ (funext fun d => Fin.ext ?_)
  match d with
  | ⟨0, _⟩ => show win0_0.index t (0 : Fin 2) * 128 + 1 * p.val = a.val; omega
  | ⟨1, _⟩ => show win0_0.index t (1 : Fin 2) * 16 + 1 * k.val = k.val; omega

theorem nodes1_at (c : Dev nD) (t : Fin cfg0.N) (q : Fin 128) (k : Fin 16) (a : Fin 2048) (ha : a.val = win0_4.index t (1 : Fin 3) * 128 + q.val) :
    iblk m c 1 t (ix2 q k) = V m c main_arg0 (ix2 a k) := by
  obtain ⟨e00, e01, e10, e11, e20, e21, e30, e42, e40, e41, e50, e51⟩ := idx_facts t
  show V m c main_arg0 (((cfg0.win 1).blk t).view.emb (ix2 q k)) = V m c main_arg0 (ix2 a k)
  refine congrArg _ (funext fun d => Fin.ext ?_)
  match d with
  | ⟨0, _⟩ => show win0_1.index t (0 : Fin 2) * 128 + 1 * q.val = a.val; omega
  | ⟨1, _⟩ => show win0_1.index t (1 : Fin 2) * 16 + 1 * k.val = k.val; omega

theorem weights_at (c : Dev nD) (t : Fin cfg0.N) (k : Fin 32) :
    iblk m c 2 t (ix2 (0 : Fin 1) k) = V m c main_arg2 (ix2 (0 : Fin 1) k) := by
  obtain ⟨e00, e01, e10, e11, e20, e21, e30, e42, e40, e41, e50, e51⟩ := idx_facts t
  show V m c main_arg2 (((cfg0.win 2).blk t).view.emb (ix2 (0 : Fin 1) k)) = V m c main_arg2 (ix2 (0 : Fin 1) k)
  refine congrArg _ (funext fun d => Fin.ext ?_)
  match d with
  | ⟨0, _⟩ => show win0_2.index t (0 : Fin 2) * 1 + 1 * 0 = 0; omega
  | ⟨1, _⟩ => show win0_2.index t (1 : Fin 2) * 32 + 1 * k.val = k.val; omega

theorem bias_at (c : Dev nD) (t : Fin cfg0.N) :
    iblk m c 3 t (ix1 (0 : Fin 1)) = V m c main_arg3 (ix1 (0 : Fin 1)) := by
  obtain ⟨e00, e01, e10, e11, e20, e21, e30, e42, e40, e41, e50, e51⟩ := idx_facts t
  show V m c main_arg3 (((cfg0.win 3).blk t).view.emb (ix1 (0 : Fin 1))) = V m c main_arg3 (ix1 (0 : Fin 1))
  refine congrArg _ (funext fun d => Fin.ext ?_)
  match d with
  | ⟨0, _⟩ => show win0_3.index t (0 : Fin 1) * 1 + 1 * 0 = 0; omega

/-- WHAT POINT `t` WRITES BACK into the 2048×2048×32 array is block `t` of the pairs' embeddings. -/
theorem flushedEmb_eq (c : Dev nD) (t : Fin cfg0.N) :
    (dats m 0 c).flushed 4 t = ((cfg0.win 4).blk t).view.read (Elt Ideal) (embSquare (V m c main_arg0)) := by
  show (cfg0.win 4).cut (grid0.coords t) ((dats m 0 c).after 4 t) = _
  rw [after0_4]
  unfold outEmb
  rw [View.canon_unit_zero hz3]
  simp only [View.ld_unit_zero (S := S128x16) hz2]
  obtain ⟨e00, e01, e10, e11, e20, e21, e30, e42, e40, e41, e50, e51⟩ := idx_facts t
  funext y
  have hy0 : (y 0).val < 128 := (y 0).isLt
  have hy1 : (y 1).val < 128 := (y 1).isLt
  have hy2 : (y 2).val < 32 := (y 2).isLt
  show k0_pay3 (F := Ideal) (iblk m c 0 t) (iblk m c 1 t) y
      = embAt (V m c main_arg0) ((((cfg0.win 4).blk t).view.emb y) 0) ((((cfg0.win 4).blk t).view.emb y) 1) ((((cfg0.win 4).blk t).view.emb y) 2)
  have hk : ((((cfg0.win 4).blk t).view.emb y) 2) = (⟨(y 2).val, hy2⟩ : Fin 32) :=
    Fin.ext (show win0_4.index t (2 : Fin 3) * 32 + 1 * (y 2).val = (y 2).val by omega)
  rw [hk]
  refine (congrArg (k0_pay3 (F := Ideal) (iblk m c 0 t) (iblk m c 1 t)) (eq_ix3 (n0 := 128) (n1 := 128) (n2 := 32) y)).trans ?_
  exact emb_point (V m c main_arg0) _ _ _ _ (y 0) (y 1) (y 2)
    (fun k' => nodes0_at m c t (y 0) k' _ (show win0_4.index t (0 : Fin 3) * 128 + 1 * (y 0).val = _ by omega))
    (fun k' => nodes1_at m c t (y 1) k' _ (show win0_4.index t (1 : Fin 3) * 128 + 1 * (y 1).val = _ by omega))

/-- WHAT POINT `t` WRITES BACK into the 2048×2048 array is block `t` of the pairs' results. -/
theorem flushedScore_eq (c : Dev nD) (t : Fin cfg0.N) :
    (dats m 0 c).flushed 5 t = ((cfg0.win 5).blk t).view.read (Elt Ideal) (scoreSquare (V m c main_arg0) (V m c main_arg2) (V m c main_arg3)) := by
  show (cfg0.win 5).cut (grid0.coords t) ((dats m 0 c).after 5 t) = _
  rw [after0_5]
  unfold outScore
  rw [View.canon_unit_zero hz2]
  simp only [View.ld_unit_zero (S := S128x16) hz2, View.ld_unit_zero (S := S1x32) hz2, View.ld_unit_zero (S := S1) hz1]
  obtain ⟨e00, e01, e10, e11, e20, e21, e30, e42, e40, e41, e50, e51⟩ := idx_facts t
  funext y
  have hy0 : (y 0).val < 128 := (y 0).isLt
  have hy1 : (y 1).val < 128 := (y 1).isLt
  show k0_pay4 (F := Ideal) (iblk m c 0 t) (iblk m c 1 t) (iblk m c 2 t) (iblk m c 3 t) y
      = maskedScore (V m c main_arg0) (V m c main_arg2) (V m c main_arg3) ((((cfg0.win 5).blk t).view.emb y) 0) ((((cfg0.win 5).blk t).view.emb y) 1)
  refine (congrArg (k0_pay4 (F := Ideal) (iblk m c 0 t) (iblk m c 1 t) (iblk m c 2 t) (iblk m c 3 t)) (eq_ix2 (n0 := 128) (n1 := 128) y)).trans ?_
  exact score_point (V m c main_arg0) (V m c main_arg2) (V m c main_arg3) _ _ _ _ _ _ (y 0) (y 1)
    (fun k' => nodes0_at m c t (y 0) k' _ (show win0_5.index t (0 : Fin 2) * 128 + 1 * (y 0).val = _ by omega))
    (fun k' => nodes1_at m c t (y 1) k' _ (show win0_5.index t (1 : Fin 2) * 128 + 1 * (y 1).val = _ by omega))
    (fun k' => weights_at m c t k') (bias_at m c t)

/-! ## The blocks tile the arrays -/

theorem mem_blkEmb (t : Fin cfg0.N) (i : S2048x2048x32.Idx) :
    i ∈ ((cfg0.win 4).blk t).view.set ↔ ∀ a : Fin 3, win0_4.index t a * S128x128x32.size a ≤ (i a).val ∧ (i a).val < win0_4.index t a * S128x128x32.size a + S128x128x32.size a := by
  show i ∈ ((View.whole main_v0_0).slice (win0_4.rect t)).set ↔ _
  rw [View.set_slice_whole, Rect.mem_set_unit]
  exact Iff.rfl

theorem mem_blkScore (t : Fin cfg0.N) (i : S2048x2048.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v0_1).slice (win0_5.rect t)).set ↔ _
  rw [View.set_slice_whole, Rect.mem_set_unit]
  exact Iff.rfl

/-- Every index of the 2048×2048×32 array is in the block of the point whose coordinates are its first two divided by 128. -/
theorem coverEmbArr (i : S2048x2048x32.Idx) : ∃ t : Fin cfg0.N, (cfg0.win 4).flush t = true ∧ i ∈ ((cfg0.win 4).blk t).view.set := by
  have hi0 : (i 0).val < 2048 := (i 0).isLt
  have hi1 : (i 1).val < 2048 := (i 1).isLt
  have hi2 : (i 2).val < 32 := (i 2).isLt
  obtain ⟨t, ht⟩ := idx_onto ⟨(i 0).val / 128, by omega⟩ ⟨(i 1).val / 128, by omega⟩
  have q0 : win0_4.index t (0 : Fin 3) = (i 0).val / 128 := congrFun ht 0
  have q1 : win0_4.index t (1 : Fin 3) = (i 1).val / 128 := congrFun ht 1
  have q2 : win0_4.index t (2 : Fin 3) = 0 := congrFun ht 2
  refine ⟨t, flush0_4 t, ?_⟩
  rw [mem_blkEmb]
  intro a
  match a with
  | ⟨0, _⟩ => show win0_4.index t (0 : Fin 3) * 128 ≤ (i 0).val ∧ (i 0).val < win0_4.index t (0 : Fin 3) * 128 + 128; omega
  | ⟨1, _⟩ => show win0_4.index t (1 : Fin 3) * 128 ≤ (i 1).val ∧ (i 1).val < win0_4.index t (1 : Fin 3) * 128 + 128; omega
  | ⟨2, _⟩ => show win0_4.index t (2 : Fin 3) * 32 ≤ (i 2).val ∧ (i 2).val < win0_4.index t (2 : Fin 3) * 32 + 32; omega

/-- The same for the 2048×2048 array. -/
theorem coverScoreArr (i : S2048x2048.Idx) : ∃ t : Fin cfg0.N, (cfg0.win 5).flush t = true ∧ i ∈ ((cfg0.win 5).blk t).view.set := by
  have hi0 : (i 0).val < 2048 := (i 0).isLt
  have hi1 : (i 1).val < 2048 := (i 1).isLt
  obtain ⟨t, ht⟩ := idx_onto ⟨(i 0).val / 128, by omega⟩ ⟨(i 1).val / 128, by omega⟩
  obtain ⟨e00, e01, e10, e11, e20, e21, e30, e42, e40, e41, e50, e51⟩ := idx_facts t
  have q0 : win0_4.index t (0 : Fin 3) = (i 0).val / 128 := congrFun ht 0
  have q1 : win0_4.index t (1 : Fin 3) = (i 1).val / 128 := congrFun ht 1
  refine ⟨t, flush0_5 t, ?_⟩
  rw [mem_blkScore]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-! ## The arrays at the end of the region -/

/-- The 2048×2048×32 array ends holding the pairs' embeddings. -/
theorem finalEmb (c : Dev nD) : (dats m 0 c).arrAt 4 cfg0.N = embSquare (V m c main_arg0) :=
  (dats m 0 c).arrAt_eq_of_cover 4 _ (fun t _ => flushedEmb_eq m c t) coverEmbArr

/-- The 2048×2048 array ends holding the pairs' results. -/
theorem finalScore (c : Dev nD) : (dats m 0 c).arrAt 5 cfg0.N = scoreSquare (V m c main_arg0) (V m c main_arg2) (V m c main_arg3) :=
  (dats m 0 c).arrAt_eq_of_cover 5 _ (fun t _ => flushedScore_eq m c t) coverScoreArr

end Cert.KernelIdeal.RegionValue

end
-- ==== Proof.Results.lean ====
/-
  The three results of the program, from the run's final contents.

  After the region two host operations re-lay the arrays it wrote: the 2048×2048×32 array becomes the 4194304×32 list and
  the 2048×2048 array the list of 4194304. Re-laying keeps the row-major position, and pair p = 2048·a + c sits at
  position (a, c) of the square, so the lists are the pairs' embeddings and results. The third result is computed from
  the integer input alone by the remaining operations, a scatter of ones into zeros at the positions 2048·i + j.
-/
import proofs.«109483_j54228257080068_1_alg».proof.Proof.Region
import proofs.«109483_j54228257080068_1_alg».proof.Proof.RegionValue
import proofs.«109483_j54228257080068_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Results

open Cert.KernelIdeal Cert.KernelIdeal.Region Cert.KernelIdeal.RegionValue Cert.EdgeSpec
open Cert.KernelIdeal.Facts₀ Cert.KernelIdeal.Facts
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- Which positions of the list of pairs get a one: from the two rows i, j of the integer input, the positions 2048·i + j
    (a negative one wrapped by 4194304), scattered as ones into the zero list. One function of the integer input. -/
def trueEdges (g : (⟨S2x65536, .i32⟩ : BufTy).Contents (Elt Ideal)) : (⟨S4194304, .f32⟩ : BufTy).Contents (Elt Ideal) :=
  let flat : (⟨S65536, .i32⟩ : BufTy).Contents (Elt Ideal) :=
    addi (muli (shapeCast S65536 (extractStridedSlice S1x65536 ![0, 0] g slices_S2x65536_S1x65536_0_0) shapeCasts_S1x65536_S65536)
        (broadcastInDim S65536 ![] bcast_S_S65536 (constantI S_ 32 2048#32)))
      (shapeCast S65536 (extractStridedSlice S1x65536 ![1, 0] g slices_S2x65536_S1x65536_1_0) shapeCasts_S1x65536_S65536)
  Host.scatter scatter_S4194304_S65536x1_S65536_n_0_0_1 (fun _ b => b)
    (broadcastInDim S4194304 ![] bcast_S_S4194304 (constant (F := Ideal) S_ .f32 0x00000000#32))
    (broadcastInDim S65536x1 ![0] bcast_S65536_S65536x1_0
      (select (cmpi .slt flat (broadcastInDim S65536 ![] bcast_S_S65536 (constantI S_ 32 0#32)))
        (addi flat (broadcastInDim S65536 ![] bcast_S_S65536 (constantI S_ 32 4194304#32))) flat))
    (broadcastInDim S65536 ![] bcast_S_S65536 (constant (F := Ideal) S_ .f32 0x3F800000#32))

/-- The region-entry contents are the launch contents. -/
theorem V_eq (c : Dev nD) (b : Ref sig .tc) : V m c b = m ((c : Thread nD τ).loc b) := rfl

/-- The first result: the 2048×2048×32 array re-laid. -/
theorem result_emb (c : Dev nD) :
    Wafter m c (Proc.devRef .tc main_v1) = embPairs (m ((c : Thread nD τ).loc main_arg0)) := by
  have h : Wafter m c (Proc.devRef .tc main_v1)
      = shapeCast S4194304x32 (Wexit m c (Proc.devRef .tc main_v0_0)) shapeCasts_S2048x2048x32_S4194304x32 := by
    unfold Wafter
    after_results
    try rfl
  rw [h, Wexit_emb, finalEmb, V_eq]
  funext i
  obtain ⟨p, k, rfl⟩ : ∃ (p : Fin 4194304) (k : Fin 32), i = ix2 p k := ⟨i 0, i 1, eq_ix2 i⟩
  rw [embPairs_apply]
  refine shapeCast_apply _ _ _ (ix3 (fstNode p) (sndNode p) k) ?_
  rw [Shape.rowMajor_val_three, Shape.rowMajor_val_two]
  show ((p.val / 2048) * 2048 + p.val % 2048) * 32 + k.val = p.val * 32 + k.val
  have := Nat.div_add_mod p.val 2048
  omega

/-- The second result: the 2048×2048 array re-laid. -/
theorem result_score (c : Dev nD) :
    Wafter m c (Proc.devRef .tc main_v2)
      = scorePairs (m ((c : Thread nD τ).loc main_arg0)) (m ((c : Thread nD τ).loc main_arg2)) (m ((c : Thread nD τ).loc main_arg3)) := by
  have h : Wafter m c (Proc.devRef .tc main_v2)
      = shapeCast S4194304 (Wexit m c (Proc.devRef .tc main_v0_1)) shapeCasts_S2048x2048_S4194304 := by
    unfold Wafter
    after_results
    try rfl
  rw [h, Wexit_score, finalScore, V_eq, V_eq, V_eq]
  funext i
  obtain ⟨p, rfl⟩ : ∃ (p : Fin 4194304), i = ix1 p := ⟨i 0, eq_ix1 i⟩
  rw [scorePairs_apply]
  refine shapeCast_apply _ _ _ (ix2 (fstNode p) (sndNode p)) ?_
  rw [Shape.rowMajor_val_two, Shape.rowMajor_val_one]
  show (p.val / 2048) * 2048 + p.val % 2048 = p.val
  have := Nat.div_add_mod p.val 2048
  omega

/-- The third result: the remaining operations, of the integer input. -/
theorem result_edges (c : Dev nD) :
    Wafter m c (Proc.devRef .tc main_v18) = trueEdges (m ((c : Thread nD τ).loc main_arg1)) := by
  unfold Wafter trueEdges
  after_results
  rw [Wexit_other m c main_arg1 (by decide) (by decide)]
  try rfl

/-- THE RUN, READ: every weakly fair execution of the program terminates with the three results at the pairs' embeddings,
    the pairs' results and the scattered ones, and the four argument arrays as they were. -/
theorem run (ρ : Dev nD → PrngReg) : θ_run defs (onTc (τ := τ) (main (F := Ideal))) ⟨m, fun _ => 0, ρ⟩ fun r => ∀ c : Dev nD,
      r.2.mem ((c.tc : Thread nD τ).loc main_v1) = embPairs (m ((c.tc : Thread nD τ).loc main_arg0))
      ∧ r.2.mem ((c.tc : Thread nD τ).loc main_v2) = scorePairs (m ((c.tc : Thread nD τ).loc main_arg0)) (m ((c.tc : Thread nD τ).loc main_arg2)) (m ((c.tc : Thread nD τ).loc main_arg3))
      ∧ r.2.mem ((c.tc : Thread nD τ).loc main_v18) = trueEdges (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 (by decide) (by decide))).trans (result_emb m c),
     ((h c).2 main_v2 (Pipeline.mem_restRefs_of main_v2 (by decide) (by decide))).trans (result_score m c),
     ((h c).2 main_v18 (Pipeline.mem_restRefs_of main_v18 (by decide) (by decide))).trans (result_edges m c),
     ((h c).1 0).trans (arrAt_in0 m c _),
     ((h c).2 main_arg1 (Pipeline.mem_restRefs_of main_arg1 (by decide) (by decide))).trans (Wafter_arg1 m c),
     ((h c).1 2).trans (arrAt_in2 m c _),
     ((h c).1 3).trans (arrAt_in3 m c _)⟩) (run_main m ρ)

end Cert.KernelIdeal.Results

end
-- ==== Proof.RefImports.lean ====
/-
  The reference program's run and its operations read at an index, brought in for the modules that state what the
  reference computes.
-/
import proofs.«109483_j54228257080068_1_alg».proof.Proof.Gen.ReferenceIdeal.Run
import proofs.«109483_j54228257080068_1_alg».proof.Proof.Gen.ReferenceIdeal.Read
-- ==== Proof.RefValue.lean ====
/-
  What the reference program computes, read index by index on the extended reals.

  Pair p of the 2048 x 2048 ordered pairs of nodes is (p / 2048, p % 2048).  The reference builds the pairs' first
  nodes by repeating every row of the node table 2048 times (a broadcast along a new middle axis, then a row-major
  flattening), the pairs' second nodes by tiling the whole table 2048 times (a broadcast along a new leading axis, then
  the same flattening), and lays the two side by side.  Row-major arithmetic turns the flattened row p, column k into
  the entries (p / 2048, k) and (p % 2048, k) of the table; that is all the first theorem says.

  The second theorem reads the masked score the same way.  The sum of absolute differences starts from the zero word,
  which is the real number 0, and runs over the 16 columns of the two tables.  The contraction over the 32 columns of
  the side-by-side row against the transposed weight row splits, in the commutative monoid of the extended reals, into
  the first 16 columns (the first node against the first 16 weights) plus the last 16 (the second node against the
  last 16 weights); no finiteness is needed for that.  The bias is one number broadcast to every pair, and the value
  taken where the two nodes do not differ is the broadcast word of -10.
-/
import proofs.«109483_j54228257080068_1_alg».proof.Proof.RefImports
import proofs.«109483_j54228257080068_1_alg».proof.Proof.Spec

noncomputable section

open scoped BigOperators

namespace Cert.EdgeRef

open Cert.ReferenceIdeal Cert.ReferenceIdeal.Gen Cert.ReferenceIdeal.Read Cert.EdgeSpec
open Idealize.ShloMosaic Idealize.ShloMosaic.ValueIdx

/-! ## The two tables of nodes, one row per pair -/

/-- The repeated table at row p, column k is the first node's entry: row p of the flattened 2048 x 2048 x 16 array
    is (p / 2048, p % 2048), and the broadcast forgets the middle coordinate. -/
theorem repeated_apply (a0 : (⟨S2048x16, .f32⟩ : BufTy).Contents (Elt Ideal)) (p : Fin 4194304) (k : Fin 16) :
    val_main_v1 (F := Ideal) a0 (ix2 p k) = a0 (ix2 (fstNode p) k) := by
  rw [val_main_v1_apply, val_main_v0_apply]
  refine congrArg a0 (funext fun a => Fin.ext ?_)
  have hp := p.isLt
  have hk := k.isLt
  match a with
  | ⟨0, _⟩ => show (p.val * 16 + k.val) / 32768 = p.val / 2048; omega
  | ⟨1, _⟩ => show (p.val * 16 + k.val) % 16 = k.val; omega

/-- The tiled table at row p, column k is the second node's entry: the broadcast forgets the leading coordinate. -/
theorem tiled_apply (a0 : (⟨S2048x16, .f32⟩ : BufTy).Contents (Elt Ideal)) (p : Fin 4194304) (k : Fin 16) :
    val_main_v4 (F := Ideal) a0 (ix2 p k) = a0 (ix2 (sndNode p) k) := by
  rw [val_main_v4_apply, val_main_v3_apply, val_main_v2_apply]
  refine congrArg a0 (funext fun a => Fin.ext ?_)
  have hp := p.isLt
  have hk := k.isLt
  match a with
  | ⟨0, _⟩ =>
    show (((0 * 2048 + (p.val * 16 + k.val) / 16 % 2048) * 1 + 0) * 16 + (p.val * 16 + k.val) % 16) / 16 = p.val % 2048
    omega
  | ⟨1, _⟩ =>
    show (((0 * 2048 + (p.val * 16 + k.val) / 16 % 2048) * 1 + 0) * 16 + (p.val * 16 + k.val) % 16) % 16 = k.val
    omega

/-! ## The pairs' embeddings -/

/-- The side-by-side row at pair p, column k: the first node's entries below column 16, the second node's from
    column 16 on. -/
theorem emb_apply (a0 : (⟨S2048x16, .f32⟩ : BufTy).Contents (Elt Ideal)) (p : Fin 4194304) (k : Fin 32) :
    val_main_v5 (F := Ideal) a0 (ix2 p k) = embAt a0 (fstNode p) (sndNode p) k := by
  unfold embAt val_main_v5
  by_cases h : k.val < 16
  · rw [dif_pos h]
    refine (concatenate_pair_apply_left (t := S4194304x32) (s₁ := S4194304x16) (s₂ := S4194304x16) 1
      (val_main_v1 (F := Ideal) a0) (val_main_v4 (F := Ideal) a0)
      concatenates_S4194304x16_S4194304x16_S4194304x32_d1 (ix2 p k) rfl
      (ix2 p (⟨k.val, h⟩ : Fin 16)) (fun b => ?_)).trans (repeated_apply a0 p ⟨k.val, h⟩)
    match b with
    | ⟨0, _⟩ => rfl
    | ⟨1, _⟩ => rfl
  · rw [dif_neg h]
    have hk := k.isLt
    refine (concatenate_pair_apply_right (t := S4194304x32) (s₁ := S4194304x16) (s₂ := S4194304x16) 1
      (val_main_v1 (F := Ideal) a0) (val_main_v4 (F := Ideal) a0)
      concatenates_S4194304x16_S4194304x16_S4194304x32_d1 (ix2 p k) rfl rfl
      (ix2 p (⟨k.val - 16, by omega⟩ : Fin 16)) (fun b hb => ?_) ?_).trans (tiled_apply a0 p ⟨k.val - 16, by omega⟩)
    · match b with
      | ⟨0, _⟩ => rfl
      | ⟨1, _⟩ => exact absurd rfl hb
    · show k.val - 16 + 16 = k.val
      omega

/-- The reference's first result, as the stage that writes it, is the specification's list of embeddings. -/
theorem val_emb (a0 : (⟨S2048x16, .f32⟩ : BufTy).Contents (Elt Ideal)) :
    val_main_v5 (F := Ideal) a0 = embPairs a0 := by
  funext i
  obtain ⟨p, k, rfl⟩ : ∃ (p : Fin 4194304) (k : Fin 32), i = ix2 p k := ⟨i 0, i 1, eq_ix2 i⟩
  exact emb_apply a0 p k

/-- THE PAIRS' EMBEDDINGS: the reference's composed term for its first result is row p = the 16 coordinates of node
    p / 2048 followed by the 16 coordinates of node p % 2048. -/
theorem ref_emb (a0 : (⟨S2048x16, .f32⟩ : BufTy).Contents (Elt Ideal)) :
    concatenate S4194304x32 1 [⟨S4194304x16, (shapeCast _ (broadcastInDim S2048x2048x16 ![0, 2] bcast_S2048x16_S2048x2048x16_0_2 (a0)) shapeCasts_S2048x2048x16_S4194304x16)⟩, ⟨S4194304x16, (shapeCast _ (broadcastInDim S2048x2048x1x16 ![0, 1, 2, 3] bcast_S1x2048x1x16_S2048x2048x1x16_0_1_2_3 (shapeCast _ (a0) shapeCasts_S2048x16_S1x2048x1x16)) shapeCasts_S2048x2048x1x16_S4194304x16)⟩] concatenates_S4194304x16_S4194304x16_S4194304x32_d1
      = embPairs a0 :=
  (val_main_v5_eq (F := Ideal) a0).trans (val_emb a0)

/-! ## The pairs' results -/

/-- A column below 16 of the side-by-side row is the first node's. -/
theorem embAt_castAdd (e : SNodes.Idx → EReal) (a c : Fin 2048) (k : Fin 16) :
    embAt e a c (Fin.castAdd 16 k) = e (ix2 a k) := by
  unfold embAt
  rw [dif_pos (show (Fin.castAdd 16 k).val < 16 from k.isLt)] <;> rfl

/-- Column 16 + k of the side-by-side row is the second node's column k. -/
theorem embAt_natAdd (e : SNodes.Idx → EReal) (a c : Fin 2048) (k : Fin 16) :
    embAt e a c (Fin.natAdd 16 k) = e (ix2 c k) := by
  have hk := k.isLt
  unfold embAt
  rw [dif_neg (show ¬ (Fin.natAdd 16 k).val < 16 from by show ¬ (16 + k.val < 16); omega)]
  exact congrArg e (congrArg (ix2 c) (Fin.ext (by show 16 + k.val - 16 = k.val; omega)))

/-- How far apart the two nodes of pair p are: the reference's sum starts from the zero word, which is 0, and adds
    the 16 absolute differences. -/
theorem apart_apply (a0 : (⟨S2048x16, .f32⟩ : BufTy).Contents (Elt Ideal)) (p : Fin 4194304) :
    val_main_v8 (F := Ideal) a0 (ix1 p) = apart a0 (fstNode p) (sndNode p) := by
  rw [val_main_v8_apply, val_main_cst_apply, Ideal.ofBits_def, Ideal.ofBits_zero_f32, zero_add]
  unfold apart
  refine Finset.sum_congr rfl fun k _ => ?_
  have hidx : idx_main_v8 (ix1 p) k = ix2 p k :=
    funext fun a => Fin.ext (by match a with | ⟨0, _⟩ => rfl | ⟨1, _⟩ => rfl)
  rw [hidx, val_main_v7_apply, val_main_v6_apply, repeated_apply, tiled_apply] <;> rfl

/-- The contraction of pair p's side-by-side row against the transposed weight row: the sum over 32 columns is the
    sum over the first 16 plus the sum over the last 16. -/
theorem contraction_apply (a0 : (⟨S2048x16, .f32⟩ : BufTy).Contents (Elt Ideal))
    (a2 : (⟨S1x32, .f32⟩ : BufTy).Contents (Elt Ideal)) (p : Fin 4194304) :
    ∑ k : Fin 32, val_main_v5 (F := Ideal) a0 (lidx_main_v12 (ix2 p (0 : Fin 1)) k)
        * val_main_v11 (F := Ideal) a2 (ridx_main_v12 (ix2 p (0 : Fin 1)) k)
      = (∑ k : Fin 16, a0 (ix2 (fstNode p) k) * a2 (ix2 (0 : Fin 1) ⟨k.val, by have := k.isLt; omega⟩))
        + (∑ k : Fin 16, a0 (ix2 (sndNode p) k) * a2 (ix2 (0 : Fin 1) ⟨16 + k.val, by have := k.isLt; omega⟩)) := by
  have hterm : ∀ k : Fin 32,
      val_main_v5 (F := Ideal) a0 (lidx_main_v12 (ix2 p (0 : Fin 1)) k)
          * val_main_v11 (F := Ideal) a2 (ridx_main_v12 (ix2 p (0 : Fin 1)) k)
        = embAt a0 (fstNode p) (sndNode p) k * a2 (ix2 (0 : Fin 1) k) := fun k => by
    have hl : lidx_main_v12 (ix2 p (0 : Fin 1)) k = ix2 p k :=
      funext fun a => Fin.ext (by match a with | ⟨0, _⟩ => rfl | ⟨1, _⟩ => rfl)
    have hr : idx_main_v11 (ridx_main_v12 (ix2 p (0 : Fin 1)) k) = ix2 (0 : Fin 1) k :=
      funext fun a => Fin.ext (by match a with | ⟨0, _⟩ => rfl | ⟨1, _⟩ => rfl)
    rw [hl, emb_apply, val_main_v11_apply, hr]
  refine (Finset.sum_congr rfl fun k _ => hterm k).trans ?_
  refine (Fin.sum_univ_add (a := 16) (b := 16)
    (fun k : Fin 32 => embAt a0 (fstNode p) (sndNode p) k * a2 (ix2 (0 : Fin 1) k))).trans ?_
  refine congrArg₂ (· + ·) (Finset.sum_congr rfl fun k _ => ?_) (Finset.sum_congr rfl fun k _ => ?_)
  · show embAt a0 (fstNode p) (sndNode p) (Fin.castAdd 16 k) * a2 (ix2 (0 : Fin 1) (Fin.castAdd 16 k)) = _
    rw [embAt_castAdd] <;> rfl
  · show embAt a0 (fstNode p) (sndNode p) (Fin.natAdd 16 k) * a2 (ix2 (0 : Fin 1) (Fin.natAdd 16 k)) = _
    rw [embAt_natAdd] <;> rfl

/-- The linear score of pair p: the contraction, plus the bias broadcast to every pair. -/
theorem score_apply (a0 : (⟨S2048x16, .f32⟩ : BufTy).Contents (Elt Ideal))
    (a2 : (⟨S1x32, .f32⟩ : BufTy).Contents (Elt Ideal)) (a3 : (⟨S1, .f32⟩ : BufTy).Contents (Elt Ideal))
    (p : Fin 4194304) :
    val_main_v16 (F := Ideal) a0 a2 a3 (ix1 p) = score a0 a2 a3 (fstNode p) (sndNode p) := by
  have h16 : idx_main_v16 (ix1 p) = ix2 p (0 : Fin 1) := funext fun a => Fin.ext (by
    match a with
    | ⟨0, _⟩ => show p.val / 1 = p.val; exact Nat.div_one _
    | ⟨1, _⟩ => rfl)
  have h14 : idx_main_v13 (idx_main_v14 (ix2 p (0 : Fin 1))) = ix1 (0 : Fin 1) :=
    funext fun a => Fin.ext (by match a with | ⟨0, _⟩ => rfl)
  rw [val_main_v16_apply, h16, val_main_v15_apply, val_main_v12_apply, contraction_apply, val_main_v14_apply,
    val_main_v13_apply, h14] <;> rfl

/-- The result of pair p: the score where the two nodes are apart, the word of -10 where they are not. -/
theorem masked_apply (a0 : (⟨S2048x16, .f32⟩ : BufTy).Contents (Elt Ideal))
    (a2 : (⟨S1x32, .f32⟩ : BufTy).Contents (Elt Ideal)) (a3 : (⟨S1, .f32⟩ : BufTy).Contents (Elt Ideal))
    (p : Fin 4194304) :
    val_main_v17 (F := Ideal) a0 a2 a3 (ix1 p) = maskedScore a0 a2 a3 (fstNode p) (sndNode p) := by
  rw [val_main_v17_apply, val_main_v10_apply, apart_apply, score_apply, val_main_v9_apply, val_main_cst_0_apply,
    val_main_call0_v1_apply, val_main_call0_v0_apply, val_main_cst_1_apply] <;> rfl

/-- The reference's second result, as the stage that writes it, is the specification's list of results. -/
theorem val_score (a0 : (⟨S2048x16, .f32⟩ : BufTy).Contents (Elt Ideal))
    (a2 : (⟨S1x32, .f32⟩ : BufTy).Contents (Elt Ideal)) (a3 : (⟨S1, .f32⟩ : BufTy).Contents (Elt Ideal)) :
    val_main_v17 (F := Ideal) a0 a2 a3 = scorePairs a0 a2 a3 := by
  funext i
  obtain ⟨p, rfl⟩ : ∃ p : Fin 4194304, i = ix1 p := ⟨i 0, eq_ix1 i⟩
  exact masked_apply a0 a2 a3 p

/-- THE PAIRS' RESULTS: the reference's composed term for its second result is, at pair p, the score of the nodes
    p / 2048 and p % 2048 where the sum of their absolute coordinate differences is positive, and -10 elsewhere. -/
theorem ref_score (a0 : (⟨S2048x16, .f32⟩ : BufTy).Contents (Elt Ideal))
    (a2 : (⟨S1x32, .f32⟩ : BufTy).Contents (Elt Ideal)) (a3 : (⟨S1, .f32⟩ : BufTy).Contents (Elt Ideal)) :
    select (cmpf (F := Ideal) (φ := .f32) .ogt (Host.reduceAdd (F := Ideal) (φ := .f32) (Host.absf (F := Ideal) (φ := .f32) (subf (F := Ideal) (φ := .f32) (shapeCast _ (broadcastInDim S2048x2048x16 ![0, 2] bcast_S2048x16_S2048x2048x16_0_2 (a0)) shapeCasts_S2048x2048x16_S4194304x16) (shapeCast _ (broadcastInDim S2048x2048x1x16 ![0, 1, 2, 3] bcast_S1x2048x1x16_S2048x2048x1x16_0_1_2_3 (shapeCast _ (a0) shapeCasts_S2048x16_S1x2048x1x16)) shapeCasts_S2048x2048x1x16_S4194304x16))) (constant (F := Ideal) S_ .f32 0x00000000#32) reducesTo_S4194304x16_S4194304_d1 h_S_) (broadcastInDim S4194304 ![] bcast_S_S4194304 (constant (F := Ideal) S_ .f32 0x00000000#32))) (shapeCast _ (addf (F := Ideal) (φ := .f32) (Host.dotGeneral (F := Ideal) (φ₁ := .f32) (φ₂ := .f32) dot_S4194304x32_S32x1_S4194304x1_1_0_0_1_n_n none (concatenate S4194304x32 1 [⟨S4194304x16, (shapeCast _ (broadcastInDim S2048x2048x16 ![0, 2] bcast_S2048x16_S2048x2048x16_0_2 (a0)) shapeCasts_S2048x2048x16_S4194304x16)⟩, ⟨S4194304x16, (shapeCast _ (broadcastInDim S2048x2048x1x16 ![0, 1, 2, 3] bcast_S1x2048x1x16_S2048x2048x1x16_0_1_2_3 (shapeCast _ (a0) shapeCasts_S2048x16_S1x2048x1x16)) shapeCasts_S2048x2048x1x16_S4194304x16)⟩] concatenates_S4194304x16_S4194304x16_S4194304x32_d1) (transpose S32x1 [1, 0] (a2) transposes_S1x32_S32x1_1_0)) (broadcastInDim S4194304x1 ![0, 1] bcast_S1x1_S4194304x1_0_1 (broadcastInDim S1x1 ![1] bcast_S1_S1x1_1 (a3)))) shapeCasts_S4194304x1_S4194304) (broadcastInDim S4194304 ![] bcast_S_S4194304 (id (constant (F := Ideal) S_ .f32 0xC1200000#32)))
      = scorePairs a0 a2 a3 :=
  (val_main_v17_eq (F := Ideal) a0 a2 a3).trans (val_score a0 a2 a3)

end Cert.EdgeRef

end
-- ==== Proof.lean ====
/-
  The certificate's five claims.

  The two kernel programs (the printed one, read at machine words, and its idealization, read at the extended reals) are
  one text, so one proof of the frame serves both: the region's pipelined run, in which the node table is read through two
  windows at the two halves of its share, followed by the host operations after the region. The reference has no kernel:
  its frame is its run with the results dropped. The idealization rewrote nothing, so it preserves the kernel trivially.
  For the equivalence both programs' three results are named by ONE term each — the pairs' embeddings, the pairs' masked
  scores, the scattered ones — of argument arrays that agree.
-/
import proofs.«109483_j54228257080068_1_alg».proof.Defs
import proofs.«109483_j54228257080068_1_alg».proof.Proof.Gen.Kernel
import proofs.«109483_j54228257080068_1_alg».proof.Proof.Gen.KernelIdeal
import proofs.«109483_j54228257080068_1_alg».proof.Proof.Gen.ReferenceIdeal
import proofs.«109483_j54228257080068_1_alg».proof.Proof.Gen.Pre_finite_inputs
import proofs.«109483_j54228257080068_1_alg».proof.Proof.Gen.ReferenceIdeal.Run
import proofs.«109483_j54228257080068_1_alg».proof.Proof.RegionBits
import proofs.«109483_j54228257080068_1_alg».proof.Proof.Region
import proofs.«109483_j54228257080068_1_alg».proof.Proof.Results
import proofs.«109483_j54228257080068_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs to the end and leaves its arguments alone. -/
theorem frame_k : Cert.frame_Kernel := fun m ρ _ => Cert.Kernel.Region.frame m ρ

/-- So does its idealization. -/
theorem frame_ki : Cert.frame_KernelIdeal := fun m ρ _ => Cert.KernelIdeal.Region.frame m ρ

/-- The reference's run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From argument arrays that agree, both programs end with the same three results. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1]
    exact Cert.EdgeRef.ref_emb _
  · rw [(hagree c).1, (hagree c).2.2.1, (hagree c).2.2.2]
    exact Cert.EdgeRef.ref_score _ _ _
  · rw [(hagree c).2.1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
